-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x72 : Shape := ⟨2, ![16384, 72]⟩
abbrev S32768x14 : Shape := ⟨2, ![32768, 14]⟩
abbrev S32768 : Shape := ⟨1, ![32768]⟩
abbrev S16384 : Shape := ⟨1, ![16384]⟩
abbrev S86x2048 : Shape := ⟨2, ![86, 2048]⟩
abbrev S2048x2048 : Shape := ⟨2, ![2048, 2048]⟩
abbrev S2120x2048 : Shape := ⟨2, ![2120, 2048]⟩
abbrev S2048 : Shape := ⟨1, ![2048]⟩
abbrev S_ : Shape := ⟨0, ![]⟩

class Facts : Prop where
  bcast_S_S16384x72 : S_.BroadcastsInDim S16384x72 (![] : Fin 0 → Fin S16384x72.rank)
  reducesTo_S16384x72_S_d0_1 : S16384x72.ReducesTo [0, 1] S_
  h_S_ : 0 < S_.numel
  bcast_S_S32768x14 : S_.BroadcastsInDim S32768x14 (![] : Fin 0 → Fin S32768x14.rank)
  reducesTo_S32768x14_S_d0_1 : S32768x14.ReducesTo [0, 1] S_
  bcast_S_S86x2048 : S_.BroadcastsInDim S86x2048 (![] : Fin 0 → Fin S86x2048.rank)
  reducesTo_S86x2048_S_d0_1 : S86x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2120x2048 : S_.BroadcastsInDim S2120x2048 (![] : Fin 0 → Fin S2120x2048.rank)
  reducesTo_S2120x2048_S_d0_1 : S2120x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg8 : FVec F S2120x2048 .f32) (main_arg9 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2120x2048 .f32 := Host.absf main_arg8
  let main_cst_6 : FVec F S_ .f32 := constant S_ .f32 0x7F800000#32
  let main_v20 : FVec F S2120x2048 .f32 := broadcastInDim S2120x2048 ![] bcast_S_S2120x2048 main_cst_6
  let main_v21 : IVec S2120x2048 1 := cmpf .olt main_v19 main_v20
  let main_c_7 : IVec S_ 1 := constantI S_ 1 1#1
  let main_v22 : IVec S_ 1 := (fun x v => Host.reduce IntOp.andi x v reducesTo_S2120x2048_S_d0_1 h_S_) main_v21 main_c_7
  let main_v23 : IVec S_ 1 := andi main_v18 main_v22
  let main_v24 : FVec F S2048 .f32 := Host.absf main_arg9
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S16384x72 .f32) (main_arg1 : FVec F S32768x14 .f32) (main_arg2 : IVec S32768 32) (main_arg3 : IVec S32768 32) (main_arg4 : IVec S32768 32) (main_arg5 : IVec S16384 32) (main_arg6 : FVec F S86x2048 .f32) (main_arg7 : FVec F S2048x2048 .f32) (main_arg8 : FVec F S2120x2048 .f32) (main_arg9 : FVec F S2048 .f32) : IVec S_ 1 :=
  let main_v0 : FVec F S16384x72 .f32 := Host.absf main_arg0
  let main_cst : FVec F S_ .f32 := constant S_ .f32 0x7F800000#32
  let main_v1 : FVec F S16384x72 .f32 := broadcastInDim S16384x72 ![] bcast_S_S16384x72 main_cst
  let main_v2 : IVec S16384x72 1 := cmpf .olt main_v0 main_v1
  let main_c : IVec S_ 1 := constantI S_ 1 1#1
  let main_v3 : IVec S_ 1 := (fun x v => Host.reduce IntOp.andi x v reducesTo_S16384x72_S_d0_1 h_S_) main_v2 main_c
  let main_v4 : FVec F S32768x14 .f32 := Host.absf main_arg1
  let main_cst_0 : FVec F S_ .f32 := constant S_ .f32 0x7F800000#32
  let main_v5 : FVec F S32768x14 .f32 := broadcastInDim S32768x14 ![] bcast_S_S32768x14 main_cst_0
  let main_v6 : IVec S32768x14 1 := cmpf .olt main_v4 main_v5
  let main_c_1 : IVec S_ 1 := constantI S_ 1 1#1
  let main_v7 : IVec S_ 1 := (fun x v => Host.reduce IntOp.andi x v reducesTo_S32768x14_S_d0_1 h_S_) main_v6 main_c_1
  let main_v8 : IVec S_ 1 := andi main_v3 main_v7
  let main_v9 : FVec F S86x2048 .f32 := Host.absf main_arg6
  let main_cst_2 : FVec F S_ .f32 := constant S_ .f32 0x7F800000#32
  let main_v10 : FVec F S86x2048 .f32 := broadcastInDim S86x2048 ![] bcast_S_S86x2048 main_cst_2
  let main_v11 : IVec S86x2048 1 := cmpf .olt main_v9 main_v10
  let main_c_3 : IVec S_ 1 := constantI S_ 1 1#1
  let main_v12 : IVec S_ 1 := (fun x v => Host.reduce IntOp.andi x v reducesTo_S86x2048_S_d0_1 h_S_) main_v11 main_c_3
  let main_v13 : IVec S_ 1 := andi main_v8 main_v12
  let main_v14 : FVec F S2048x2048 .f32 := Host.absf main_arg7
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg8 main_arg9 main_v13 main_v16
-- ==== Kernel.lean ====
abbrev S16384x72 : Shape := ⟨2, ![16384, 72]⟩
abbrev S32768x14 : Shape := ⟨2, ![32768, 14]⟩
abbrev S32768 : Shape := ⟨1, ![32768]⟩
abbrev S16384 : Shape := ⟨1, ![16384]⟩
abbrev S86x2048 : Shape := ⟨2, ![86, 2048]⟩
abbrev S2048x2048 : Shape := ⟨2, ![2048, 2048]⟩
abbrev S2120x2048 : Shape := ⟨2, ![2120, 2048]⟩
abbrev S2048 : Shape := ⟨1, ![2048]⟩
abbrev S1x2048 : Shape := ⟨2, ![1, 2048]⟩
abbrev S_ : Shape := ⟨0, ![]⟩
abbrev S32768x1 : Shape := ⟨2, ![32768, 1]⟩
abbrev S32768x72 : Shape := ⟨2, ![32768, 72]⟩
abbrev S32768x86 : Shape := ⟨2, ![32768, 86]⟩
abbrev S32768x2048 : Shape := ⟨2, ![32768, 2048]⟩
abbrev S512x86 : Shape := ⟨2, ![512, 86]⟩
abbrev S512x2048 : Shape := ⟨2, ![512, 2048]⟩
abbrev S16384x2048 : Shape := ⟨2, ![16384, 2048]⟩
abbrev S1024x512 : Shape := ⟨2, ![1024, 512]⟩
abbrev S1024x2048 : Shape := ⟨2, ![1024, 2048]⟩
abbrev S2048x512 : Shape := ⟨2, ![2048, 512]⟩
abbrev S16384x2120 : Shape := ⟨2, ![16384, 2120]⟩
abbrev S512x2120 : Shape := ⟨2, ![512, 2120]⟩
abbrev S16384x1 : Shape := ⟨2, ![16384, 1]⟩
abbrev S512 : Shape := ⟨1, ![512]⟩
abbrev S512x1 : Shape := ⟨2, ![512, 1]⟩

abbrev nBuf : Space → Nat
  | .hbm => 149
  | .vmem => 43
  | .smem => 0
  | _ => 0

abbrev hbmTy0_0 (i : Nat) : BufTy := match i % 128 with
  | 0 => ⟨S16384x72, .f32⟩
  | 1 => ⟨S32768x14, .f32⟩
  | 2 => ⟨S32768, .i32⟩
  | 3 => ⟨S32768, .i32⟩
  | 4 => ⟨S32768, .i32⟩
  | 5 => ⟨S16384, .i32⟩
  | 6 => ⟨S86x2048, .f32⟩
  | 7 => ⟨S2048x2048, .f32⟩
  | 8 => ⟨S2120x2048, .f32⟩
  | 9 => ⟨S2048, .f32⟩
  | 10 => ⟨S86x2048, .bf16⟩
  | 11 => ⟨S2048x2048, .bf16⟩
  | 12 => ⟨S2120x2048, .bf16⟩
  | 13 => ⟨S1x2048, .f32⟩
  | 14 => ⟨S_, .i32⟩
  | 15 => ⟨S32768, .i32⟩
  | 16 => ⟨S32768, .i1⟩
  | 17 => ⟨S_, .i32⟩
  | 18 => ⟨S32768, .i32⟩
  | 19 => ⟨S32768, .i32⟩
  | 20 => ⟨S32768, .i32⟩
  | 21 => ⟨S32768x1, .i32⟩
  | 22 => ⟨S32768x72, .f32⟩
  | 23 => ⟨S32768x86, .f32⟩
  | 24 => ⟨S32768x86, .bf16⟩
  | 25 => ⟨S32768x2048, .f32⟩
  | 26 => ⟨S_, .f32⟩
  | 27 => ⟨S16384x2048, .f32⟩
  | 28 => ⟨S32768x1, .i32⟩
  | 29 => ⟨S16384x2048, .f32⟩
  | 30 => ⟨S_, .i32⟩
  | 31 => ⟨S32768, .i32⟩
  | 32 => ⟨S32768, .i1⟩
  | 33 => ⟨S_, .i32⟩
  | 34 => ⟨S32768, .i32⟩
  | 35 => ⟨S32768, .i32⟩
  | 36 => ⟨S32768, .i32⟩
  | 37 => ⟨S32768x1, .i32⟩
  | 38 => ⟨S32768x2048, .f32⟩
  | 39 => ⟨S_, .i32⟩
  | 40 => ⟨S32768, .i32⟩
  | 41 => ⟨S32768, .i1⟩
  | 42 => ⟨S_, .i32⟩
  | 43 => ⟨S32768, .i32⟩
  | 44 => ⟨S32768, .i32⟩
  | 45 => ⟨S32768, .i32⟩
  | 46 => ⟨S32768x1, .i32⟩
  | 47 => ⟨S32768x2048, .f32⟩
  | 48 => ⟨S32768x2048, .f32⟩
  | 49 => ⟨S32768x2048, .bf16⟩
  | 50 => ⟨S32768x2048, .f32⟩
  | 51 => ⟨S_, .f32⟩
  | 52 => ⟨S16384x2048, .f32⟩
  | 53 => ⟨S32768x1, .i32⟩
  | 54 => ⟨S16384x2048, .f32⟩
  | 55 => ⟨S_, .i32⟩
  | 56 => ⟨S32768, .i32⟩
  | 57 => ⟨S32768, .i1⟩
  | 58 => ⟨S_, .i32⟩
  | 59 => ⟨S32768, .i32⟩
  | 60 => ⟨S32768, .i32⟩
  | 61 => ⟨S32768, .i32⟩
  | 62 => ⟨S32768x1, .i32⟩
  | 63 => ⟨S32768x2048, .f32⟩
  | 64 => ⟨S_, .i32⟩
  | 65 => ⟨S32768, .i32⟩
  | 66 => ⟨S32768, .i1⟩
  | 67 => ⟨S_, .i32⟩
  | 68 => ⟨S32768, .i32⟩
  | 69 => ⟨S32768, .i32⟩
  | 70 => ⟨S32768, .i32⟩
  | 71 => ⟨S32768x1, .i32⟩
  | 72 => ⟨S32768x2048, .f32⟩
  | 73 => ⟨S32768x2048, .f32⟩
  | 74 => ⟨S32768x2048, .bf16⟩
  | 75 => ⟨S32768x2048, .f32⟩
  | 76 => ⟨S_, .f32⟩
  | 77 => ⟨S16384x2048, .f32⟩
  | 78 => ⟨S32768x1, .i32⟩
  | 79 => ⟨S16384x2048, .f32⟩
  | 80 => ⟨S_, .i32⟩
  | 81 => ⟨S32768, .i32⟩
  | 82 => ⟨S32768, .i1⟩
  | 83 => ⟨S_, .i32⟩
  | 84 => ⟨S32768, .i32⟩
  | 85 => ⟨S32768, .i32⟩
  | 86 => ⟨S32768, .i32⟩
  | 87 => ⟨S32768x1, .i32⟩
  | 88 => ⟨S32768x2048, .f32⟩
  | 89 => ⟨S_, .i32⟩
  | 90 => ⟨S32768, .i32⟩
  | 91 => ⟨S32768, .i1⟩
  | 92 => ⟨S_, .i32⟩
  | 93 => ⟨S32768, .i32⟩
  | 94 => ⟨S32768, .i32⟩
  | 95 => ⟨S32768, .i32⟩
  | 96 => ⟨S32768x1, .i32⟩
  | 97 => ⟨S32768x2048, .f32⟩
  | 98 => ⟨S32768x2048, .f32⟩
  | 99 => ⟨S32768x2048, .bf16⟩
  | 100 => ⟨S32768x2048, .f32⟩
  | 101 => ⟨S_, .f32⟩
  | 102 => ⟨S16384x2048, .f32⟩
  | 103 => ⟨S32768x1, .i32⟩
  | 104 => ⟨S16384x2048, .f32⟩
  | 105 => ⟨S_, .i32⟩
  | 106 => ⟨S32768, .i32⟩
  | 107 => ⟨S32768, .i1⟩
  | 108 => ⟨S_, .i32⟩
  | 109 => ⟨S32768, .i32⟩
  | 110 => ⟨S32768, .i32⟩
  | 111 => ⟨S32768, .i32⟩
  | 112 => ⟨S32768x1, .i32⟩
  | 113 => ⟨S32768x2048, .f32⟩
  | 114 => ⟨S_, .i32⟩
  | 115 => ⟨S32768, .i32⟩
  | 116 => ⟨S32768, .i1⟩
  | 117 => ⟨S_, .i32⟩
  | 118 => ⟨S32768, .i32⟩
  | 119 => ⟨S32768, .i32⟩
  | 120 => ⟨S32768, .i32⟩
  | 121 => ⟨S32768x1, .i32⟩
  | 122 => ⟨S32768x2048, .f32⟩
  | 123 => ⟨S32768x2048, .f32⟩
  | 124 => ⟨S32768x2048, .bf16⟩
  | 125 => ⟨S32768x2048, .f32⟩
  | 126 => ⟨S_, .f32⟩
  | 127 => ⟨S16384x2048, .f32⟩
  | _ => ⟨S16384x72, .f32⟩

abbrev hbmTy0_1 (i : Nat) : BufTy := match i % 128 with
  | 0 => ⟨S32768x1, .i32⟩
  | 1 => ⟨S16384x2048, .f32⟩
  | 2 => ⟨S16384x2120, .f32⟩
  | 3 => ⟨S16384x2120, .bf16⟩
  | 4 => ⟨S16384x2048, .f32⟩
  | 5 => ⟨S_, .f32⟩
  | 6 => ⟨S512x2048, .f32⟩
  | 7 => ⟨S16384x1, .i32⟩
  | 8 => ⟨S512x2048, .f32⟩
  | 9 => ⟨S_, .f32⟩
  | 10 => ⟨S16384, .f32⟩
  | 11 => ⟨S_, .f32⟩
  | 12 => ⟨S512, .f32⟩
  | 13 => ⟨S16384x1, .i32⟩
  | 14 => ⟨S512, .f32⟩
  | 15 => ⟨S_, .f32⟩
  | 16 => ⟨S512, .f32⟩
  | 17 => ⟨S512, .f32⟩
  | 18 => ⟨S512x1, .f32⟩
  | 19 => ⟨S512x2048, .f32⟩
  | 20 => ⟨S512x2048, .f32⟩
  | _ => ⟨S16384x72, .f32⟩

abbrev hbmTy (i : Nat) : BufTy := match i / 128 with
  | 0 => hbmTy0_0 i
  | 1 => hbmTy0_1 i
  | _ => ⟨S16384x72, .f32⟩

abbrev bufTy : (tb : Table) → Fin (tcTables nBuf tb) → BufTy
  | .hbm, ⟨i, _⟩ => hbmTy i
  | .local _ .vmem, ⟨0, _⟩ => ⟨S512x86, .bf16⟩
  | .local _ .vmem, ⟨1, _⟩ => ⟨S512x86, .bf16⟩
  | .local _ .vmem, ⟨2, _⟩ => ⟨S86x2048, .bf16⟩
  | .local _ .vmem, ⟨3, _⟩ => ⟨S512x2048, .f32⟩
  | .local _ .vmem, ⟨4, _⟩ => ⟨S512x2048, .f32⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | .local _ .vmem, ⟨8, _⟩ => ⟨S1024x2048, .bf16⟩
  | .local _ .vmem, ⟨9, _⟩ => ⟨S2048x512, .bf16⟩
  | .local _ .vmem, ⟨10, _⟩ => ⟨S2048x512, .bf16⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x2048, .bf16⟩
  | .local _ .vmem, ⟨16, _⟩ => ⟨S1024x2048, .bf16⟩
  | .local _ .vmem, ⟨17, _⟩ => ⟨S2048x512, .bf16⟩
  | .local _ .vmem, ⟨18, _⟩ => ⟨S2048x512, .bf16⟩
  | .local _ .vmem, ⟨19, _⟩ => ⟨S1024x512, .f32⟩
  | .local _ .vmem, ⟨20, _⟩ => ⟨S1024x512, .f32⟩
  | .local _ .vmem, ⟨21, _⟩ => ⟨S1024x512, .f32⟩
  | .local _ .vmem, ⟨22, _⟩ => ⟨S1024x512, .f32⟩
  | .local _ .vmem, ⟨23, _⟩ => ⟨S1024x2048, .bf16⟩
  | .local _ .vmem, ⟨24, _⟩ => ⟨S1024x2048, .bf16⟩
  | .local _ .vmem, ⟨25, _⟩ => ⟨S2048x512, .bf16⟩
  | .local _ .vmem, ⟨26, _⟩ => ⟨S2048x512, .bf16⟩
  | .local _ .vmem, ⟨27, _⟩ => ⟨S1024x512, .f32⟩
  | .local _ .vmem, ⟨28, _⟩ => ⟨S1024x512, .f32⟩
  | .local _ .vmem, ⟨29, _⟩ => ⟨S1024x512, .f32⟩
  | .local _ .vmem, ⟨30, _⟩ => ⟨S1024x512, .f32⟩
  | .local _ .vmem, ⟨31, _⟩ => ⟨S1024x2048, .bf16⟩
  | .local _ .vmem, ⟨32, _⟩ => ⟨S1024x2048, .bf16⟩
  | .local _ .vmem, ⟨33, _⟩ => ⟨S2048x512, .bf16⟩
  | .local _ .vmem, ⟨34, _⟩ => ⟨S2048x512, .bf16⟩
  | .local _ .vmem, ⟨35, _⟩ => ⟨S1024x512, .f32⟩
  | .local _ .vmem, ⟨36, _⟩ => ⟨S1024x512, .f32⟩
  | .local _ .vmem, ⟨37, _⟩ => ⟨S512x2120, .bf16⟩
  | .local _ .vmem, ⟨38, _⟩ => ⟨S512x2120, .bf16⟩
  | .local _ .vmem, ⟨39, _⟩ => ⟨S2120x2048, .bf16⟩
  | .local _ .vmem, ⟨40, _⟩ => ⟨S1x2048, .f32⟩
  | .local _ .vmem, ⟨41, _⟩ => ⟨S512x2048, .f32⟩
  | .local _ .vmem, ⟨42, _⟩ => ⟨S512x2048, .f32⟩
  | _, _ => ⟨S16384x72, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_3 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_6 : Ref sig .tc := ⟨.hbm, 55, rfl⟩
abbrev main_v37 : Ref sig .tc := ⟨.hbm, 56, rfl⟩
abbrev main_v38 : Ref sig .tc := ⟨.hbm, 57, rfl⟩
abbrev main_c_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_c_16 : Ref sig .tc := ⟨.hbm, 105, rfl⟩
abbrev main_v77 : Ref sig .tc := ⟨.hbm, 106, rfl⟩
abbrev main_v78 : Ref sig .tc := ⟨.hbm, 107, rfl⟩
abbrev main_c_17 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_c_18 : Ref sig .tc := ⟨.hbm, 114, rfl⟩
abbrev main_v84 : Ref sig .tc := ⟨.hbm, 115, rfl⟩
abbrev main_v85 : Ref sig .tc := ⟨.hbm, 116, rfl⟩
abbrev main_c_19 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_20 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_21 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_22 : Ref sig .tc := ⟨.hbm, 137, rfl⟩
abbrev main_v103 : Ref sig .tc := ⟨.hbm, 138, rfl⟩
abbrev main_cst_23 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_24 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg3_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg3_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem3_1 : DmaSem sig := 36
abbrev cc5_sem0_0 : DmaSem sig := 37
abbrev cc5_sem0_1 : DmaSem sig := 38
abbrev cc5_sem1_0 : DmaSem sig := 39
abbrev cc5_sem2_0 : DmaSem sig := 40
abbrev cc5_sem3_0 : DmaSem sig := 41
abbrev cc5_sem3_1 : DmaSem sig := 42

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x86 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S86x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![32, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![32, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S2048x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![32, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S2048x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1024x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![32, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1024x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S2048x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S1024x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x2120 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2120x2048 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x2048 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S512x2048 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bitsLt_bf16_f32 : FTy.bits .bf16 < FTy.bits .f32
  shapeCasts_S2048_S1x2048 : S2048.ShapeCasts S1x2048
  bcast_S_S32768 : S_.BroadcastsInDim S32768 (![] : Fin 0 → Fin S32768.rank)
  bcast_S32768_S32768x1_0 : S32768.BroadcastsInDim S32768x1 (![0] : Fin 1 → Fin S32768x1.rank)
  concatenates_S32768x72_S32768x14_S32768x86_d1 : Shape.Concatenates [S32768x72, S32768x14] S32768x86 1
  inb_S512x86_S512x86_0_0 : ∀ a, (![0, 0] : Fin 2 → Nat) a + S512x86.size a ≤ S512x86.size a
  h_S512x86 : 0 < S512x86.numel
  shapeCasts_S512x86_S512x86 : S512x86.ShapeCasts S512x86
  inb_S86x2048_S86x2048_0_0 : ∀ a, (![0, 0] : Fin 2 → Nat) a + S86x2048.size a ≤ S86x2048.size a
  h_S86x2048 : 0 < S86x2048.numel
  shapeCasts_S86x2048_S86x2048 : S86x2048.ShapeCasts S86x2048
  inb_S512x2048_S512x2048_0_0 : ∀ a, (![0, 0] : Fin 2 → Nat) a + S512x2048.size a ≤ S512x2048.size a
  h_S512x2048 : 0 < S512x2048.numel
  bcast_S_S16384x2048 : S_.BroadcastsInDim S16384x2048 (![] : Fin 0 → Fin S16384x2048.rank)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  concatenates_S16384x72_S16384x2048_S16384x2120_d1 : Shape.Concatenates [S16384x72, S16384x2048] S16384x2120 1
  inb_S512x2120_S512x2120_0_0 : ∀ a, (![0, 0] : Fin 2 → Nat) a + S512x2120.size a ≤ S512x2120.size a
  h_S512x2120 : 0 < S512x2120.numel
  shapeCasts_S512x2120_S512x2120 : S512x2120.ShapeCasts S512x2120
  inb_S2120x2048_S2120x2048_0_0 : ∀ a, (![0, 0] : Fin 2 → Nat) a + S2120x2048.size a ≤ S2120x2048.size a
  h_S2120x2048 : 0 < S2120x2048.numel
  shapeCasts_S2120x2048_S2120x2048 : S2120x2048.ShapeCasts S2120x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  bcast_S_S512x2048 : S_.BroadcastsInDim S512x2048 (![] : Fin 0 → Fin S512x2048.rank)
  bcast_S16384_S16384x1_0 : S16384.BroadcastsInDim S16384x1 (![0] : Fin 1 → Fin S16384x1.rank)
  bcast_S_S16384 : S_.BroadcastsInDim S16384 (![] : Fin 0 → Fin S16384.rank)
  bcast_S_S512 : S_.BroadcastsInDim S512 (![] : Fin 0 → Fin S512.rank)
  bcast_S512_S512x1_0 : S512.BroadcastsInDim S512x1 (![0] : Fin 1 → Fin S512x1.rank)
  bcast_S512x1_S512x2048_0_1 : S512x1.BroadcastsInDim S512x2048 (![0, 1] : Fin 2 → Fin S512x2048.rank)
  gather_S16384x72_S32768x1_S32768x72_1_0_n_n_0_1_172_wf : GatherDims.WF S16384x72 S32768x1 S32768x72 [1] [0] [] [0] [] 1 ![1, 72]
  dot_S512x86_S86x2048_S512x2048_1_0_0_1_n_n_wf : DotDims.WF S512x86 S86x2048 S512x2048 [1] [0] [0] [1] [] []
  scatter_S16384x2048_S32768x1_S32768x2048_1_0_0_1_wf : ScatterDims.WF S16384x2048 S32768x1 S32768x2048 [1] [0] [0] 1
  gather_S16384x2048_S32768x1_S32768x2048_1_0_n_n_0_1_12048_wf : GatherDims.WF S16384x2048 S32768x1 S32768x2048 [1] [0] [] [0] [] 1 ![1, 2048]
  gather_S32768x2048_S32768x1_S32768x2048_1_0_n_n_0_1_12048_wf : GatherDims.WF S32768x2048 S32768x1 S32768x2048 [1] [0] [] [0] [] 1 ![1, 2048]
  dot_S1024x2048_S2048x512_S1024x512_1_0_0_1_n_n_wf : DotDims.WF S1024x2048 S2048x512 S1024x512 [1] [0] [0] [1] [] []
  dot_S512x2120_S2120x2048_S512x2048_1_0_0_1_n_n_wf : DotDims.WF S512x2120 S2120x2048 S512x2048 [1] [0] [0] [1] [] []
  scatter_S512x2048_S16384x1_S16384x2048_1_0_0_1_wf : ScatterDims.WF S512x2048 S16384x1 S16384x2048 [1] [0] [0] 1
  scatter_S512_S16384x1_S16384_n_0_0_1_wf : ScatterDims.WF S512 S16384x1 S16384 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x86.size a ≤ S32768x86.size a
  hwx0_0 : ∀ i : grid0.Coords, EltTy.bits .bf16 = 32 ∨ (Rect.block (s := S32768x86) S512x86.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S86x2048.size a ≤ S86x2048.size a
  hwx0_1 : ∀ i : grid0.Coords, EltTy.bits .bf16 = 32 ∨ (Rect.block (s := S86x2048) S86x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S32768x2048.size a
  hwx0_2 : ∀ i : grid0.Coords, EltTy.bits .f32 = 32 ∨ (Rect.block (s := S32768x2048) S512x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S32768x2048.size a
  hwx1_0 : ∀ i : grid1.Coords, EltTy.bits .f32 = 32 ∨ (Rect.block (s := S32768x2048) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S32768x2048.size a
  hwx1_1 : ∀ i : grid1.Coords, EltTy.bits .bf16 = 32 ∨ (Rect.block (s := S32768x2048) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x512.size a ≤ S2048x2048.size a
  hwx1_2 : ∀ i : grid1.Coords, EltTy.bits .bf16 = 32 ∨ (Rect.block (s := S2048x2048) S2048x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S32768x2048.size a
  hwx1_3 : ∀ i : grid1.Coords, EltTy.bits .f32 = 32 ∨ (Rect.block (s := S32768x2048) S1024x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S32768x2048.size a
  hwx2_0 : ∀ i : grid2.Coords, EltTy.bits .f32 = 32 ∨ (Rect.block (s := S32768x2048) S1024x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S32768x2048.size a
  hwx2_1 : ∀ i : grid2.Coords, EltTy.bits .bf16 = 32 ∨ (Rect.block (s := S32768x2048) S1024x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x512.size a ≤ S2048x2048.size a
  hwx2_2 : ∀ i : grid2.Coords, EltTy.bits .bf16 = 32 ∨ (Rect.block (s := S2048x2048) S2048x512.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S32768x2048.size a
  hwx2_3 : ∀ i : grid2.Coords, EltTy.bits .f32 = 32 ∨ (Rect.block (s := S32768x2048) S1024x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x512.size a ≤ S32768x2048.size a
  hwx3_0 : ∀ i : grid3.Coords, EltTy.bits .f32 = 32 ∨ (Rect.block (s := S32768x2048) S1024x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x2048.size a ≤ S32768x2048.size a
  hwx3_1 : ∀ i : grid3.Coords, EltTy.bits .bf16 = 32 ∨ (Rect.block (s := S32768x2048) S1024x2048.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x512.size a ≤ S2048x2048.size a
  hwx3_2 : ∀ i : grid3.Coords, EltTy.bits .bf16 = 32 ∨ (Rect.block (s := S2048x2048) S2048x512.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x512.size a ≤ S32768x2048.size a
  hwx3_3 : ∀ i : grid3.Coords, EltTy.bits .f32 = 32 ∨ (Rect.block (s := S32768x2048) S1024x512.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x512.size a ≤ S32768x2048.size a
  hwx4_0 : ∀ i : grid4.Coords, EltTy.bits .f32 = 32 ∨ (Rect.block (s := S32768x2048) S1024x512.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x2048.size a ≤ S32768x2048.size a
  hwx4_1 : ∀ i : grid4.Coords, EltTy.bits .bf16 = 32 ∨ (Rect.block (s := S32768x2048) S1024x2048.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x512.size a ≤ S2048x2048.size a
  hwx4_2 : ∀ i : grid4.Coords, EltTy.bits .bf16 = 32 ∨ (Rect.block (s := S2048x2048) S2048x512.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x512.size a ≤ S32768x2048.size a
  hwx4_3 : ∀ i : grid4.Coords, EltTy.bits .f32 = 32 ∨ (Rect.block (s := S32768x2048) S1024x512.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x2120.size a ≤ S16384x2120.size a
  hwx5_0 : ∀ i : grid5.Coords, EltTy.bits .bf16 = 32 ∨ (Rect.block (s := S16384x2120) S512x2120.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S2120x2048.size a ≤ S2120x2048.size a
  hwx5_1 : ∀ i : grid5.Coords, EltTy.bits .bf16 = 32 ∨ (Rect.block (s := S2120x2048) S2120x2048.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x2048.size a ≤ S1x2048.size a
  hwx5_2 : ∀ i : grid5.Coords, EltTy.bits .f32 = 32 ∨ (Rect.block (s := S1x2048) S1x2048.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S512x2048.size a ≤ S16384x2048.size a
  hwx5_3 : ∀ i : grid5.Coords, EltTy.bits .f32 = 32 ∨ (Rect.block (s := S16384x2048) S512x2048.size (cc5_transform_3 i) (hinb5_3 i)).WholeWords (EltTy.packing .f32)

variable [Facts₀]

def gather_S16384x72_S32768x1_S32768x72_1_0_n_n_0_1_172 : GatherDims S16384x72 S32768x1 S32768x72 where
  offsetDims := [1]
  collapsedSliceDims := [0]
  operandBatchingDims := []
  startIndicesBatchingDims := []
  startIndexMap := [0]
  indexVectorDim := 1
  sliceSizes := ![1, 72]
  wf := gather_S16384x72_S32768x1_S32768x72_1_0_n_n_0_1_172_wf
def dot_S512x86_S86x2048_S512x2048_1_0_0_1_n_n : DotDims S512x86 S86x2048 S512x2048 where
  lhsContracting := [1]
  rhsContracting := [0]
  lhsNonContracting := [0]
  rhsNonContracting := [1]
  lhsBatch := []
  rhsBatch := []
  wf := dot_S512x86_S86x2048_S512x2048_1_0_0_1_n_n_wf
def scatter_S16384x2048_S32768x1_S32768x2048_1_0_0_1 : ScatterDims S16384x2048 S32768x1 S32768x2048 where
  updateWindowDims := [1]
  insertedWindowDims := [0]
  scatterDimsToOperandDims := [0]
  indexVectorDim := 1
  wf := scatter_S16384x2048_S32768x1_S32768x2048_1_0_0_1_wf
def gather_S16384x2048_S32768x1_S32768x2048_1_0_n_n_0_1_12048 : GatherDims S16384x2048 S32768x1 S32768x2048 where
  offsetDims := [1]
  collapsedSliceDims := [0]
  operandBatchingDims := []
  startIndicesBatchingDims := []
  startIndexMap := [0]
  indexVectorDim := 1
  sliceSizes := ![1, 2048]
  wf := gather_S16384x2048_S32768x1_S32768x2048_1_0_n_n_0_1_12048_wf
def gather_S32768x2048_S32768x1_S32768x2048_1_0_n_n_0_1_12048 : GatherDims S32768x2048 S32768x1 S32768x2048 where
  offsetDims := [1]
  collapsedSliceDims := [0]
  operandBatchingDims := []
  startIndicesBatchingDims := []
  startIndexMap := [0]
  indexVectorDim := 1
  sliceSizes := ![1, 2048]
  wf := gather_S32768x2048_S32768x1_S32768x2048_1_0_n_n_0_1_12048_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S512x2120_S2120x2048_S512x2048_1_0_0_1_n_n : DotDims S512x2120 S2120x2048 S512x2048 where
  lhsContracting := [1]
  rhsContracting := [0]
  lhsNonContracting := [0]
  rhsNonContracting := [1]
  lhsBatch := []
  rhsBatch := []
  wf := dot_S512x2120_S2120x2048_S512x2048_1_0_0_1_n_n_wf
def scatter_S512x2048_S16384x1_S16384x2048_1_0_0_1 : ScatterDims S512x2048 S16384x1 S16384x2048 where
  updateWindowDims := [1]
  insertedWindowDims := [0]
  scatterDimsToOperandDims := [0]
  indexVectorDim := 1
  wf := scatter_S512x2048_S16384x1_S16384x2048_1_0_0_1_wf
def scatter_S512_S16384x1_S16384_n_0_0_1 : ScatterDims S512 S16384x1 S16384 where
  updateWindowDims := []
  insertedWindowDims := [0]
  scatterDimsToOperandDims := [0]
  indexVectorDim := 1
  wf := scatter_S512_S16384x1_S16384_n_0_0_1_wf

abbrev win0_0 : Pipeline.Window sig grid0 :=
  Pipeline.Window.ofSpec (Memref.whole main_v12) S512x86.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S86x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2048x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v13) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S1024x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S2048x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1024x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v13) S1024x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S1024x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v1) S2048x512.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v73) S1024x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v13) S1024x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v92) S1024x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v1) S2048x512.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v93) S1024x512.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v98) S512x2120.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v2) S2120x2048.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v3) S1x2048.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v99) S512x2048.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S16384x72 : Shape := ⟨2, ![16384, 72]⟩
abbrev S32768x14 : Shape := ⟨2, ![32768, 14]⟩
abbrev S32768 : Shape := ⟨1, ![32768]⟩
abbrev S16384 : Shape := ⟨1, ![16384]⟩
abbrev S86x2048 : Shape := ⟨2, ![86, 2048]⟩
abbrev S2048x2048 : Shape := ⟨2, ![2048, 2048]⟩
abbrev S2120x2048 : Shape := ⟨2, ![2120, 2048]⟩
abbrev S2048 : Shape := ⟨1, ![2048]⟩
abbrev S_ : Shape := ⟨0, ![]⟩
abbrev S32768x1 : Shape := ⟨2, ![32768, 1]⟩
abbrev S32768x72 : Shape := ⟨2, ![32768, 72]⟩
abbrev S32768x86 : Shape := ⟨2, ![32768, 86]⟩
abbrev S32768x2048 : Shape := ⟨2, ![32768, 2048]⟩
abbrev S16384x2048 : Shape := ⟨2, ![16384, 2048]⟩
abbrev S16384x2120 : Shape := ⟨2, ![16384, 2120]⟩
abbrev S1x2048 : Shape := ⟨2, ![1, 2048]⟩
abbrev S512x2048 : Shape := ⟨2, ![512, 2048]⟩
abbrev S16384x1 : Shape := ⟨2, ![16384, 1]⟩
abbrev S512 : Shape := ⟨1, ![512]⟩
abbrev S512x1 : Shape := ⟨2, ![512, 1]⟩

abbrev nBuf : Space → Nat
  | .hbm => 164
  | .vmem => 0
  | .smem => 0
  | _ => 0

abbrev hbmTy0_0 (i : Nat) : BufTy := match i % 128 with
  | 0 => ⟨S16384x72, .f32⟩
  | 1 => ⟨S32768x14, .f32⟩
  | 2 => ⟨S32768, .i32⟩
  | 3 => ⟨S32768, .i32⟩
  | 4 => ⟨S32768, .i32⟩
  | 5 => ⟨S16384, .i32⟩
  | 6 => ⟨S86x2048, .f32⟩
  | 7 => ⟨S2048x2048, .f32⟩
  | 8 => ⟨S2120x2048, .f32⟩
  | 9 => ⟨S2048, .f32⟩
  | 10 => ⟨S_, .i32⟩
  | 11 => ⟨S32768, .i32⟩
  | 12 => ⟨S32768, .i1⟩
  | 13 => ⟨S_, .i32⟩
  | 14 => ⟨S32768, .i32⟩
  | 15 => ⟨S32768, .i32⟩
  | 16 => ⟨S32768, .i32⟩
  | 17 => ⟨S32768x1, .i32⟩
  | 18 => ⟨S32768x72, .f32⟩
  | 19 => ⟨S32768x86, .f32⟩
  | 20 => ⟨S32768x2048, .f32⟩
  | 21 => ⟨S_, .f32⟩
  | 22 => ⟨S32768x2048, .f32⟩
  | 23 => ⟨S32768x2048, .f32⟩
  | 24 => ⟨S_, .f32⟩
  | 25 => ⟨S16384x2048, .f32⟩
  | 26 => ⟨S32768x1, .i32⟩
  | 27 => ⟨S16384x2048, .f32⟩
  | 28 => ⟨S_, .i32⟩
  | 29 => ⟨S32768, .i32⟩
  | 30 => ⟨S32768, .i1⟩
  | 31 => ⟨S_, .i32⟩
  | 32 => ⟨S32768, .i32⟩
  | 33 => ⟨S32768, .i32⟩
  | 34 => ⟨S32768, .i32⟩
  | 35 => ⟨S32768x1, .i32⟩
  | 36 => ⟨S32768x2048, .f32⟩
  | 37 => ⟨S_, .i32⟩
  | 38 => ⟨S32768, .i32⟩
  | 39 => ⟨S32768, .i1⟩
  | 40 => ⟨S_, .i32⟩
  | 41 => ⟨S32768, .i32⟩
  | 42 => ⟨S32768, .i32⟩
  | 43 => ⟨S32768, .i32⟩
  | 44 => ⟨S32768x1, .i32⟩
  | 45 => ⟨S32768x2048, .f32⟩
  | 46 => ⟨S32768x2048, .f32⟩
  | 47 => ⟨S32768x2048, .f32⟩
  | 48 => ⟨S32768x2048, .f32⟩
  | 49 => ⟨S_, .f32⟩
  | 50 => ⟨S32768x2048, .f32⟩
  | 51 => ⟨S32768x2048, .f32⟩
  | 52 => ⟨S_, .f32⟩
  | 53 => ⟨S16384x2048, .f32⟩
  | 54 => ⟨S32768x1, .i32⟩
  | 55 => ⟨S16384x2048, .f32⟩
  | 56 => ⟨S_, .i32⟩
  | 57 => ⟨S32768, .i32⟩
  | 58 => ⟨S32768, .i1⟩
  | 59 => ⟨S_, .i32⟩
  | 60 => ⟨S32768, .i32⟩
  | 61 => ⟨S32768, .i32⟩
  | 62 => ⟨S32768, .i32⟩
  | 63 => ⟨S32768x1, .i32⟩
  | 64 => ⟨S32768x2048, .f32⟩
  | 65 => ⟨S_, .i32⟩
  | 66 => ⟨S32768, .i32⟩
  | 67 => ⟨S32768, .i1⟩
  | 68 => ⟨S_, .i32⟩
  | 69 => ⟨S32768, .i32⟩
  | 70 => ⟨S32768, .i32⟩
  | 71 => ⟨S32768, .i32⟩
  | 72 => ⟨S32768x1, .i32⟩
  | 73 => ⟨S32768x2048, .f32⟩
  | 74 => ⟨S32768x2048, .f32⟩
  | 75 => ⟨S32768x2048, .f32⟩
  | 76 => ⟨S32768x2048, .f32⟩
  | 77 => ⟨S_, .f32⟩
  | 78 => ⟨S32768x2048, .f32⟩
  | 79 => ⟨S32768x2048, .f32⟩
  | 80 => ⟨S_, .f32⟩
  | 81 => ⟨S16384x2048, .f32⟩
  | 82 => ⟨S32768x1, .i32⟩
  | 83 => ⟨S16384x2048, .f32⟩
  | 84 => ⟨S_, .i32⟩
  | 85 => ⟨S32768, .i32⟩
  | 86 => ⟨S32768, .i1⟩
  | 87 => ⟨S_, .i32⟩
  | 88 => ⟨S32768, .i32⟩
  | 89 => ⟨S32768, .i32⟩
  | 90 => ⟨S32768, .i32⟩
  | 91 => ⟨S32768x1, .i32⟩
  | 92 => ⟨S32768x2048, .f32⟩
  | 93 => ⟨S_, .i32⟩
  | 94 => ⟨S32768, .i32⟩
  | 95 => ⟨S32768, .i1⟩
  | 96 => ⟨S_, .i32⟩
  | 97 => ⟨S32768, .i32⟩
  | 98 => ⟨S32768, .i32⟩
  | 99 => ⟨S32768, .i32⟩
  | 100 => ⟨S32768x1, .i32⟩
  | 101 => ⟨S32768x2048, .f32⟩
  | 102 => ⟨S32768x2048, .f32⟩
  | 103 => ⟨S32768x2048, .f32⟩
  | 104 => ⟨S32768x2048, .f32⟩
  | 105 => ⟨S_, .f32⟩
  | 106 => ⟨S32768x2048, .f32⟩
  | 107 => ⟨S32768x2048, .f32⟩
  | 108 => ⟨S_, .f32⟩
  | 109 => ⟨S16384x2048, .f32⟩
  | 110 => ⟨S32768x1, .i32⟩
  | 111 => ⟨S16384x2048, .f32⟩
  | 112 => ⟨S_, .i32⟩
  | 113 => ⟨S32768, .i32⟩
  | 114 => ⟨S32768, .i1⟩
  | 115 => ⟨S_, .i32⟩
  | 116 => ⟨S32768, .i32⟩
  | 117 => ⟨S32768, .i32⟩
  | 118 => ⟨S32768, .i32⟩
  | 119 => ⟨S32768x1, .i32⟩
  | 120 => ⟨S32768x2048, .f32⟩
  | 121 => ⟨S_, .i32⟩
  | 122 => ⟨S32768, .i32⟩
  | 123 => ⟨S32768, .i1⟩
  | 124 => ⟨S_, .i32⟩
  | 125 => ⟨S32768, .i32⟩
  | 126 => ⟨S32768, .i32⟩
  | 127 => ⟨S32768, .i32⟩
  | _ => ⟨S16384x72, .f32⟩

abbrev hbmTy0_1 (i : Nat) : BufTy := match i % 128 with
  | 0 => ⟨S32768x1, .i32⟩
  | 1 => ⟨S32768x2048, .f32⟩
  | 2 => ⟨S32768x2048, .f32⟩
  | 3 => ⟨S32768x2048, .f32⟩
  | 4 => ⟨S32768x2048, .f32⟩
  | 5 => ⟨S_, .f32⟩
  | 6 => ⟨S32768x2048, .f32⟩
  | 7 => ⟨S32768x2048, .f32⟩
  | 8 => ⟨S_, .f32⟩
  | 9 => ⟨S16384x2048, .f32⟩
  | 10 => ⟨S32768x1, .i32⟩
  | 11 => ⟨S16384x2048, .f32⟩
  | 12 => ⟨S16384x2120, .f32⟩
  | 13 => ⟨S16384x2048, .f32⟩
  | 14 => ⟨S1x2048, .f32⟩
  | 15 => ⟨S16384x2048, .f32⟩
  | 16 => ⟨S16384x2048, .f32⟩
  | 17 => ⟨S_, .f32⟩
  | 18 => ⟨S16384x2048, .f32⟩
  | 19 => ⟨S16384x2048, .f32⟩
  | 20 => ⟨S_, .f32⟩
  | 21 => ⟨S512x2048, .f32⟩
  | 22 => ⟨S16384x1, .i32⟩
  | 23 => ⟨S512x2048, .f32⟩
  | 24 => ⟨S_, .f32⟩
  | 25 => ⟨S16384, .f32⟩
  | 26 => ⟨S_, .f32⟩
  | 27 => ⟨S512, .f32⟩
  | 28 => ⟨S16384x1, .i32⟩
  | 29 => ⟨S512, .f32⟩
  | 30 => ⟨S_, .f32⟩
  | 31 => ⟨S512, .f32⟩
  | 32 => ⟨S512, .f32⟩
  | 33 => ⟨S512x1, .f32⟩
  | 34 => ⟨S512x2048, .f32⟩
  | 35 => ⟨S512x2048, .f32⟩
  | _ => ⟨S16384x72, .f32⟩

abbrev hbmTy (i : Nat) : BufTy := match i / 128 with
  | 0 => hbmTy0_0 i
  | 1 => hbmTy0_1 i
  | _ => ⟨S16384x72, .f32⟩

abbrev bufTy : (tb : Table) → Fin (tcTables nBuf tb) → BufTy
  | .hbm, ⟨i, _⟩ => hbmTy i
  | _, _ => ⟨S16384x72, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call0_cst : Ref sig .tc := ⟨.hbm, 21, rfl⟩
abbrev main_call0_v0 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_1 : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call1_cst : Ref sig .tc := ⟨.hbm, 49, rfl⟩
abbrev main_call1_v0 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_6 : Ref sig .tc := ⟨.hbm, 56, rfl⟩
abbrev main_v34 : Ref sig .tc := ⟨.hbm, 57, rfl⟩
abbrev main_v35 : Ref sig .tc := ⟨.hbm, 58, rfl⟩
abbrev main_c_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_8 : Ref sig .tc := ⟨.hbm, 65, rfl⟩
abbrev main_v41 : Ref sig .tc := ⟨.hbm, 66, rfl⟩
abbrev main_v42 : Ref sig .tc := ⟨.hbm, 67, rfl⟩
abbrev main_c_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call2_cst : Ref sig .tc := ⟨.hbm, 77, rfl⟩
abbrev main_call2_v0 : Ref sig .tc := ⟨.hbm, 78, rfl⟩
abbrev main_v51 : Ref sig .tc := ⟨.hbm, 79, rfl⟩
abbrev main_cst_10 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c_11 : Ref sig .tc := ⟨.hbm, 84, rfl⟩
abbrev main_v55 : Ref sig .tc := ⟨.hbm, 85, rfl⟩
abbrev main_v56 : Ref sig .tc := ⟨.hbm, 86, rfl⟩
abbrev main_c_12 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_13 : Ref sig .tc := ⟨.hbm, 93, rfl⟩
abbrev main_v62 : Ref sig .tc := ⟨.hbm, 94, rfl⟩
abbrev main_v63 : Ref sig .tc := ⟨.hbm, 95, rfl⟩
abbrev main_c_14 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_call3_cst : Ref sig .tc := ⟨.hbm, 105, rfl⟩
abbrev main_call3_v0 : Ref sig .tc := ⟨.hbm, 106, rfl⟩
abbrev main_v72 : Ref sig .tc := ⟨.hbm, 107, rfl⟩
abbrev main_cst_15 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_c_16 : Ref sig .tc := ⟨.hbm, 112, rfl⟩
abbrev main_v76 : Ref sig .tc := ⟨.hbm, 113, rfl⟩
abbrev main_v77 : Ref sig .tc := ⟨.hbm, 114, rfl⟩
abbrev main_c_17 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_c_18 : Ref sig .tc := ⟨.hbm, 121, rfl⟩
abbrev main_v83 : Ref sig .tc := ⟨.hbm, 122, rfl⟩
abbrev main_v84 : Ref sig .tc := ⟨.hbm, 123, rfl⟩
abbrev main_c_19 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_call4_cst : Ref sig .tc := ⟨.hbm, 133, rfl⟩
abbrev main_call4_v0 : Ref sig .tc := ⟨.hbm, 134, rfl⟩
abbrev main_v93 : Ref sig .tc := ⟨.hbm, 135, rfl⟩
abbrev main_cst_20 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_call5_cst : Ref sig .tc := ⟨.hbm, 145, rfl⟩
abbrev main_call5_v0 : Ref sig .tc := ⟨.hbm, 146, rfl⟩
abbrev main_v102 : Ref sig .tc := ⟨.hbm, 147, rfl⟩
abbrev main_cst_21 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_cst_22 : Ref sig .tc := ⟨.hbm, 152, rfl⟩
abbrev main_v106 : Ref sig .tc := ⟨.hbm, 153, rfl⟩
abbrev main_cst_23 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_cst_24 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩

abbrev nD : Nat := 1
abbrev τ : Topo := Topo.v7x

variable {F : FTy → Type} [FloatOps F]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  concatenates_S32768x72_S32768x14_S32768x86_d1 : Shape.Concatenates [S32768x72, S32768x14] S32768x86 1
  bcast_S_S32768x2048 : S_.BroadcastsInDim S32768x2048 (![] : Fin 0 → Fin S32768x2048.rank)
  bcast_S_S16384x2048 : S_.BroadcastsInDim S16384x2048 (![] : Fin 0 → Fin S16384x2048.rank)
  concatenates_S16384x72_S16384x2048_S16384x2120_d1 : Shape.Concatenates [S16384x72, S16384x2048] S16384x2120 1
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S512x2048 : S_.BroadcastsInDim S512x2048 (![] : Fin 0 → Fin S512x2048.rank)
  bcast_S16384_S16384x1_0 : S16384.BroadcastsInDim S16384x1 (![0] : Fin 1 → Fin S16384x1.rank)
  bcast_S_S16384 : S_.BroadcastsInDim S16384 (![] : Fin 0 → Fin S16384.rank)
  bcast_S_S512 : S_.BroadcastsInDim S512 (![] : Fin 0 → Fin S512.rank)
  bcast_S512_S512x1_0 : S512.BroadcastsInDim S512x1 (![0] : Fin 1 → Fin S512x1.rank)
  bcast_S512x1_S512x2048_0_1 : S512x1.BroadcastsInDim S512x2048 (![0, 1] : Fin 2 → Fin S512x2048.rank)
  gather_S16384x72_S32768x1_S32768x72_1_0_n_n_0_1_172_wf : GatherDims.WF S16384x72 S32768x1 S32768x72 [1] [0] [] [0] [] 1 ![1, 72]
  dot_S32768x86_S86x2048_S32768x2048_1_0_0_1_n_n_wf : DotDims.WF S32768x86 S86x2048 S32768x2048 [1] [0] [0] [1] [] []
  scatter_S16384x2048_S32768x1_S32768x2048_1_0_0_1_wf : ScatterDims.WF S16384x2048 S32768x1 S32768x2048 [1] [0] [0] 1
  gather_S16384x2048_S32768x1_S32768x2048_1_0_n_n_0_1_12048_wf : GatherDims.WF S16384x2048 S32768x1 S32768x2048 [1] [0] [] [0] [] 1 ![1, 2048]
  gather_S32768x2048_S32768x1_S32768x2048_1_0_n_n_0_1_12048_wf : GatherDims.WF S32768x2048 S32768x1 S32768x2048 [1] [0] [] [0] [] 1 ![1, 2048]
  dot_S32768x2048_S2048x2048_S32768x2048_1_0_0_1_n_n_wf : DotDims.WF S32768x2048 S2048x2048 S32768x2048 [1] [0] [0] [1] [] []
  dot_S16384x2120_S2120x2048_S16384x2048_1_0_0_1_n_n_wf : DotDims.WF S16384x2120 S2120x2048 S16384x2048 [1] [0] [0] [1] [] []
  scatter_S512x2048_S16384x1_S16384x2048_1_0_0_1_wf : ScatterDims.WF S512x2048 S16384x1 S16384x2048 [1] [0] [0] 1
  scatter_S512_S16384x1_S16384_n_0_0_1_wf : ScatterDims.WF S512 S16384x1 S16384 [] [0] [0] 1

variable [Facts₀]

def gather_S16384x72_S32768x1_S32768x72_1_0_n_n_0_1_172 : GatherDims S16384x72 S32768x1 S32768x72 where
  offsetDims := [1]
  collapsedSliceDims := [0]
  operandBatchingDims := []
  startIndicesBatchingDims := []
  startIndexMap := [0]
  indexVectorDim := 1
  sliceSizes := ![1, 72]
  wf := gather_S16384x72_S32768x1_S32768x72_1_0_n_n_0_1_172_wf
def dot_S32768x86_S86x2048_S32768x2048_1_0_0_1_n_n : DotDims S32768x86 S86x2048 S32768x2048 where
  lhsContracting := [1]
  rhsContracting := [0]
  lhsNonContracting := [0]
  rhsNonContracting := [1]
  lhsBatch := []
  rhsBatch := []
  wf := dot_S32768x86_S86x2048_S32768x2048_1_0_0_1_n_n_wf
def scatter_S16384x2048_S32768x1_S32768x2048_1_0_0_1 : ScatterDims S16384x2048 S32768x1 S32768x2048 where
  updateWindowDims := [1]
  insertedWindowDims := [0]
  scatterDimsToOperandDims := [0]
  indexVectorDim := 1
  wf := scatter_S16384x2048_S32768x1_S32768x2048_1_0_0_1_wf
def gather_S16384x2048_S32768x1_S32768x2048_1_0_n_n_0_1_12048 : GatherDims S16384x2048 S32768x1 S32768x2048 where
  offsetDims := [1]
  collapsedSliceDims := [0]
  operandBatchingDims := []
  startIndicesBatchingDims := []
  startIndexMap := [0]
  indexVectorDim := 1
  sliceSizes := ![1, 2048]
  wf := gather_S16384x2048_S32768x1_S32768x2048_1_0_n_n_0_1_12048_wf
def gather_S32768x2048_S32768x1_S32768x2048_1_0_n_n_0_1_12048 : GatherDims S32768x2048 S32768x1 S32768x2048 where
  offsetDims := [1]
  collapsedSliceDims := [0]
  operandBatchingDims := []
  startIndicesBatchingDims := []
  startIndexMap := [0]
  indexVectorDim := 1
  sliceSizes := ![1, 2048]
  wf := gather_S32768x2048_S32768x1_S32768x2048_1_0_n_n_0_1_12048_wf
def dot_S32768x2048_S2048x2048_S32768x2048_1_0_0_1_n_n : DotDims S32768x2048 S2048x2048 S32768x2048 where
  lhsContracting := [1]
  rhsContracting := [0]
  lhsNonContracting := [0]
  rhsNonContracting := [1]
  lhsBatch := []
  rhsBatch := []
  wf := dot_S32768x2048_S2048x2048_S32768x2048_1_0_0_1_n_n_wf
def dot_S16384x2120_S2120x2048_S16384x2048_1_0_0_1_n_n : DotDims S16384x2120 S2120x2048 S16384x2048 where
  lhsContracting := [1]
  rhsContracting := [0]
  lhsNonContracting := [0]
  rhsNonContracting := [1]
  lhsBatch := []
  rhsBatch := []
  wf := dot_S16384x2120_S2120x2048_S16384x2048_1_0_0_1_n_n_wf
def scatter_S512x2048_S16384x1_S16384x2048_1_0_0_1 : ScatterDims S512x2048 S16384x1 S16384x2048 where
  updateWindowDims := [1]
  insertedWindowDims := [0]
  scatterDimsToOperandDims := [0]
  indexVectorDim := 1
  wf := scatter_S512x2048_S16384x1_S16384x2048_1_0_0_1_wf
def scatter_S512_S16384x1_S16384_n_0_0_1 : ScatterDims S512 S16384x1 S16384 where
  updateWindowDims := []
  insertedWindowDims := [0]
  scatterDimsToOperandDims := [0]
  indexVectorDim := 1
  wf := scatter_S512_S16384x1_S16384_n_0_0_1_wf

class Facts : Prop extends Facts₀ where

variable [Facts]
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.LibBiasRows.lean ====
/-
  A bias row added to every row of a matrix, with or without a rectifier, on the extended reals.

  For `a : [n, d]` and a row `b : [1, d]` the sum's entry (r, j) is `a (r, j) + b (0, j)`; the rectified layer takes the
  larger of that and the zero word's value.  The vector unit spells the sum as a cast of each operand to its own shape,
  a broadcast of the row down the n rows and an elementwise addition, and the rectifier as an elementwise maximum
  against a broadcast scalar.  An entry reads one entry of the matrix and one of the row, which the congruence lemmas
  record.  Nothing here needs finiteness.
-/
import Idealize.ShloMosaic.PureOps.Ideal
import Idealize.ShloMosaic.Lib.ValueIdx
import Idealize.ShloMosaic.Lib.Pipeline.Value

noncomputable section

namespace Cert.LibBiasRows

open Idealize.ShloMosaic Idealize.ShloMosaic.ValueIdx

/-- Entry (r, j) of the matrix with the row added to each of its rows. -/
def addRow {n d : ℕ} (a : (⟨2, ![n, d]⟩ : Shape).Idx → EReal) (b : (⟨2, ![1, d]⟩ : Shape).Idx → EReal) :
    (⟨2, ![n, d]⟩ : Shape).Idx → EReal :=
  fun i => a i + b (ix2 ⟨0, Nat.one_pos⟩ (i 1))

/-- The same followed by the rectifier: the larger of the sum and the zero word's value. -/
def reluRow {n d : ℕ} (a : (⟨2, ![n, d]⟩ : Shape).Idx → EReal) (b : (⟨2, ![1, d]⟩ : Shape).Idx → EReal) :
    (⟨2, ![n, d]⟩ : Shape).Idx → EReal :=
  fun i => max (addRow a b i) (Ideal.ofBits .f32 0x00000000#32)

/-- An entry of the sum reads the matrix at that entry and the row at its column. -/
theorem addRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    addRow a b i = addRow a' b' i' := by
  unfold addRow
  rw [ha, hb]

/-- The same for the rectified layer. -/
theorem reluRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    reluRow a b i = reluRow a' b' i' := by
  unfold reluRow
  rw [addRow_congr a a' b b' i i' ha hb]

/-- A row `[1, d]` broadcast down n rows, at entry (r, j), is the row at (0, j). -/
theorem row_broadcast {n d : ℕ} (b : (⟨2, ![1, d]⟩ : Shape).Idx → EReal)
    (h : (⟨2, ![1, d]⟩ : Shape).Broadcasts ⟨2, ![n, d]⟩) (i : (⟨2, ![n, d]⟩ : Shape).Idx) :
    broadcastTo ⟨2, ![n, d]⟩ b h i = b (ix2 ⟨0, Nat.one_pos⟩ (i 1)) := by
  refine broadcastTo_apply b h i (ix2 ⟨0, Nat.one_pos⟩ (i 1)) (fun a => ?_)
  match a with
  | ⟨0, _⟩ => exact (if_pos rfl).symm
  | ⟨1, _⟩ =>
    show (i 1).val = if d = 1 then 0 else (i 1).val
    have hlt : (i 1).val < d := idx2_lt1 i
    split
    · omega
    · rfl

/-- A vector `[d]` laid out as a row `[1, d]`, at (0, j), is the vector at j. -/
theorem row_of_vector {d : ℕ} (b : (⟨1, ![d]⟩ : Shape).Idx → EReal) (h : (⟨1, ![d]⟩ : Shape).ShapeCasts ⟨2, ![1, d]⟩)
    (j : Fin d) : shapeCast ⟨2, ![1, d]⟩ b h (ix2 ⟨0, Nat.one_pos⟩ j) = b (ix1 j) := by
  refine (shapeCast_addUnit_apply ![d] b h _).trans (congrArg b (funext fun a => ?_))
  match a with
  | ⟨0, _⟩ => rfl

/-- The vector unit's spelling of the sum, at an entry. -/
theorem vec_addRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    addf (shapeCast ⟨2, ![n, d]⟩ x h0) (broadcastTo ⟨2, ![n, d]⟩ (shapeCast ⟨2, ![1, d]⟩ b h1) h2) i = addRow x b i := by
  rw [shapeCast_self, shapeCast_self]
  show x i + broadcastTo ⟨2, ![n, d]⟩ b h2 i = x i + b (ix2 ⟨0, Nat.one_pos⟩ (i 1))
  rw [row_broadcast]

/-- The vector unit's spelling of the rectified layer, at an entry. -/
theorem vec_reluRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    maximumf (addf (shapeCast ⟨2, ![n, d]⟩ x h0) (broadcastTo ⟨2, ![n, d]⟩ (shapeCast ⟨2, ![1, d]⟩ b h1) h2))
        (broadcast ⟨2, ![n, d]⟩ (FloatOps.ofBits (F := Ideal) .f32 0x00000000#32)) i = reluRow x b i := by
  show max (addf (shapeCast ⟨2, ![n, d]⟩ x h0) (broadcastTo ⟨2, ![n, d]⟩ (shapeCast ⟨2, ![1, d]⟩ b h1) h2) i) _ = max (addRow x b i) _
  rw [vec_addRow]
  rfl

end Cert.LibBiasRows

end
-- ==== Proof.Stage.lean ====
/-
  The three matrix stages of the bond-message-passing encoder, on the extended reals, and each kernel body read as
  its stage at an index.

  Every stage is a rectified affine map of a matrix product.  For a left operand x : [n, K] and weights w : [K, d]
  the product's entry (r, j) is the finite sum  ∑ k, x (r, k) * w (k, j)  (LibDense.prod).  The first stage is
  max (x·w) 0, the recurrent stage max (h0 + m·w) 0 with h0 added on the LEFT, the last stage max (x·w + b) 0 with
  a bias row b : [1, d] added on the right.  A vector unit's matrix product into a zero accumulator is that sum, a
  change of float format is the identity on the extended reals, so each body's stored value is its stage of the
  blocks it loaded.  Nothing here needs finiteness.
-/
import proofs.«122672_j9036611190784_1_alg».proof.Proof.Gen.KernelIdeal.Skeleton
import proofs.«122672_j9036611190784_1_alg».proof.Proof.LibDense
import proofs.«122672_j9036611190784_1_alg».proof.Proof.LibBiasRows
import Idealize.ShloMosaic.Lib.ValueIdx
import Idealize.ShloMosaic.Lib.Pipeline.Value
import Idealize.ShloMosaic.PureOps.Ideal.Laws

noncomputable section

namespace Cert.Stage

open Idealize.ShloMosaic Idealize.ShloMosaic.ValueIdx Cert.KernelIdeal Cert.KernelIdeal.Gen

/-- The zero word's value, the rectifier's threshold. -/
abbrev zeroW : EReal := Ideal.ofBits .f32 0x00000000#32

/-- max (x·w) 0 at entry i. -/
def mmRelu {n K d : ℕ} (x : (⟨2, ![n, K]⟩ : Shape).Idx → EReal) (w : (⟨2, ![K, d]⟩ : Shape).Idx → EReal) :
    (⟨2, ![n, d]⟩ : Shape).Idx → EReal :=
  fun i => max (LibDense.prod x w i) zeroW

/-- max (h0 + x·w) 0 at entry i. -/
def mmAddRelu {n K d : ℕ} (h0 : (⟨2, ![n, d]⟩ : Shape).Idx → EReal) (x : (⟨2, ![n, K]⟩ : Shape).Idx → EReal)
    (w : (⟨2, ![K, d]⟩ : Shape).Idx → EReal) : (⟨2, ![n, d]⟩ : Shape).Idx → EReal :=
  fun i => max (h0 i + LibDense.prod x w i) zeroW

/-- max (x·w + b) 0 at entry i, b a row [1, d]. -/
def mmBiasRelu {n K d : ℕ} (x : (⟨2, ![n, K]⟩ : Shape).Idx → EReal) (w : (⟨2, ![K, d]⟩ : Shape).Idx → EReal)
    (b : (⟨2, ![1, d]⟩ : Shape).Idx → EReal) : (⟨2, ![n, d]⟩ : Shape).Idx → EReal :=
  fun i => max (LibDense.prod x w i + b (ix2 ⟨0, Nat.one_pos⟩ (i 1))) zeroW

/-- The first body stores max (x·w) 0 of its two loaded blocks. -/
theorem pay0_apply (x0 : Vec Ideal S512x86 .bf16) (x1 : Vec Ideal S86x2048 .bf16) (j : S512x2048.Idx) :
    k0_pay1 (F := Ideal) x0 x1 j = mmRelu x0 x1 j := by
  unfold k0_pay1 mmRelu
  rw [shapeCast_self, shapeCast_self]
  exact congrArg₂ max (LibDense.matmul_plain x0 x1 j) rfl

/-- A recurrent body stores max (h0 + m·w) 0 of its three loaded blocks. -/
theorem pay1_apply (v0 : Vec Ideal S1024x2048 .bf16) (v2 : Vec Ideal S2048x512 .bf16) (v5 : Vec Ideal S1024x512 .f32)
    (j : S1024x512.Idx) : k1_pay1 (F := Ideal) v0 v2 v5 j = mmAddRelu v5 v0 v2 j := by
  unfold k1_pay1 mmAddRelu
  rw [shapeCast_self, shapeCast_self, shapeCast_self]
  exact congrArg₂ max (congrArg (v5 j + ·) (LibDense.matmul_plain v0 v2 j)) rfl

theorem pay2_apply (v0 : Vec Ideal S1024x2048 .bf16) (v2 : Vec Ideal S2048x512 .bf16) (v5 : Vec Ideal S1024x512 .f32)
    (j : S1024x512.Idx) : k2_pay1 (F := Ideal) v0 v2 v5 j = mmAddRelu v5 v0 v2 j := by
  unfold k2_pay1 mmAddRelu
  rw [shapeCast_self, shapeCast_self, shapeCast_self]
  exact congrArg₂ max (congrArg (v5 j + ·) (LibDense.matmul_plain v0 v2 j)) rfl

theorem pay3_apply (v0 : Vec Ideal S1024x2048 .bf16) (v2 : Vec Ideal S2048x512 .bf16) (v5 : Vec Ideal S1024x512 .f32)
    (j : S1024x512.Idx) : k3_pay1 (F := Ideal) v0 v2 v5 j = mmAddRelu v5 v0 v2 j := by
  unfold k3_pay1 mmAddRelu
  rw [shapeCast_self, shapeCast_self, shapeCast_self]
  exact congrArg₂ max (congrArg (v5 j + ·) (LibDense.matmul_plain v0 v2 j)) rfl

theorem pay4_apply (v0 : Vec Ideal S1024x2048 .bf16) (v2 : Vec Ideal S2048x512 .bf16) (v5 : Vec Ideal S1024x512 .f32)
    (j : S1024x512.Idx) : k4_pay1 (F := Ideal) v0 v2 v5 j = mmAddRelu v5 v0 v2 j := by
  unfold k4_pay1 mmAddRelu
  rw [shapeCast_self, shapeCast_self, shapeCast_self]
  exact congrArg₂ max (congrArg (v5 j + ·) (LibDense.matmul_plain v0 v2 j)) rfl

/-- The last body stores max (x·w + b) 0 of its three loaded blocks, the bias row broadcast down the rows. -/
theorem pay5_apply (v0 : Vec Ideal S512x2120 .bf16) (v2 : Vec Ideal S2120x2048 .bf16) (v5 : Vec Ideal S1x2048 .f32)
    (j : S512x2048.Idx) : k5_pay1 (F := Ideal) v0 v2 v5 j = mmBiasRelu v0 v2 v5 j := by
  unfold k5_pay1 mmBiasRelu
  rw [shapeCast_self, shapeCast_self, shapeCast_self]
  exact congrArg₂ max (congrArg₂ (· + ·) (LibDense.matmul_plain v0 v2 j)
    (LibBiasRows.row_broadcast v5 broadcasts_S1x2048_S512x2048 j)) rfl

end Cert.Stage

end
-- ==== Proof.RefStage.lean ====
/-
  The reference's matrix stages are the same three functions.

  The reference spells a stage with the host's dot_general, an elementwise addition and a maximum against a broadcast
  zero.  On the extended reals dot_general's entry (r, j) is the row-by-column sum, so
      relu (x·w)            = max (x·w) 0,
      relu (h0 + m·w)       = max (h0 + m·w) 0,
      relu (x·w + b)        = max (x·w + b) 0  with b : [2048] laid out as a row and repeated down the rows,
  entry by entry, with no condition on the operands.
-/
import proofs.«122672_j9036611190784_1_alg».proof.Proof.Gen.ReferenceIdeal.Read
import proofs.«122672_j9036611190784_1_alg».proof.Proof.Stage

noncomputable section

namespace Cert.RefStage

open Idealize.ShloMosaic Idealize.ShloMosaic.ValueIdx Cert.Stage Cert.ReferenceIdeal Cert.ReferenceIdeal.Read

variable (x0 : (⟨S16384x72, .f32⟩ : BufTy).Contents (Elt Ideal)) (x1 : (⟨S32768x14, .f32⟩ : BufTy).Contents (Elt Ideal))
  (x2 x3 x4 : (⟨S32768, .i32⟩ : BufTy).Contents (Elt Ideal)) (x6 : (⟨S86x2048, .f32⟩ : BufTy).Contents (Elt Ideal))
  (x7 : (⟨S2048x2048, .f32⟩ : BufTy).Contents (Elt Ideal)) (x8 : (⟨S2120x2048, .f32⟩ : BufTy).Contents (Elt Ideal))
  (x9 : (⟨S2048, .f32⟩ : BufTy).Contents (Elt Ideal))

/-- The initial hidden state: relu of the product of the concatenated edge features with W_i. -/
theorem h0_eq : val_main_v9 (F := Ideal) x0 x1 x2 x6
    = mmRelu (val_main_v7 (F := Ideal) x0 x1 x2 : S32768x86.Idx → EReal) (x6 : S86x2048.Idx → EReal) := by
  funext i
  show max (val_main_v8 (F := Ideal) x0 x1 x2 x6 i) (val_main_call0_v0 (F := Ideal) i)
    = max (LibDense.prod (val_main_v7 (F := Ideal) x0 x1 x2 : S32768x86.Idx → EReal) (x6 : S86x2048.Idx → EReal) i) zeroW
  exact congrArg₂ max (LibDense.dotGeneral_plain _ (val_main_v7 (F := Ideal) x0 x1 x2) x6 i)
    ((val_main_call0_v0_apply i).trans rfl)

/-- The first update: relu (h0 + m·W_h). -/
theorem h1_eq : val_main_v30 (F := Ideal) x0 x1 x2 x3 x4 x6 x7
    = mmAddRelu (val_main_v9 (F := Ideal) x0 x1 x2 x6 : S32768x2048.Idx → EReal)
        (val_main_v27 (F := Ideal) x0 x1 x2 x3 x4 x6 : S32768x2048.Idx → EReal) (x7 : S2048x2048.Idx → EReal) := by
  funext i
  show max (val_main_v9 (F := Ideal) x0 x1 x2 x6 i + val_main_v28 (F := Ideal) x0 x1 x2 x3 x4 x6 x7 i) (val_main_call1_v0 (F := Ideal) i)
    = max (val_main_v9 (F := Ideal) x0 x1 x2 x6 i
        + LibDense.prod (val_main_v27 (F := Ideal) x0 x1 x2 x3 x4 x6 : S32768x2048.Idx → EReal) (x7 : S2048x2048.Idx → EReal) i) zeroW
  exact congrArg₂ max (congrArg (val_main_v9 (F := Ideal) x0 x1 x2 x6 i + ·)
      (LibDense.dotGeneral_plain _ (val_main_v27 (F := Ideal) x0 x1 x2 x3 x4 x6) x7 i))
    ((val_main_call1_v0_apply i).trans rfl)

/-- The second update. -/
theorem h2_eq : val_main_v51 (F := Ideal) x0 x1 x2 x3 x4 x6 x7
    = mmAddRelu (val_main_v9 (F := Ideal) x0 x1 x2 x6 : S32768x2048.Idx → EReal)
        (val_main_v48 (F := Ideal) x0 x1 x2 x3 x4 x6 x7 : S32768x2048.Idx → EReal) (x7 : S2048x2048.Idx → EReal) := by
  funext i
  show max (val_main_v9 (F := Ideal) x0 x1 x2 x6 i + val_main_v49 (F := Ideal) x0 x1 x2 x3 x4 x6 x7 i) (val_main_call2_v0 (F := Ideal) i)
    = max (val_main_v9 (F := Ideal) x0 x1 x2 x6 i
        + LibDense.prod (val_main_v48 (F := Ideal) x0 x1 x2 x3 x4 x6 x7 : S32768x2048.Idx → EReal) (x7 : S2048x2048.Idx → EReal) i) zeroW
  exact congrArg₂ max (congrArg (val_main_v9 (F := Ideal) x0 x1 x2 x6 i + ·)
      (LibDense.dotGeneral_plain _ (val_main_v48 (F := Ideal) x0 x1 x2 x3 x4 x6 x7) x7 i))
    ((val_main_call2_v0_apply i).trans rfl)

/-- The third update. -/
theorem h3_eq : val_main_v72 (F := Ideal) x0 x1 x2 x3 x4 x6 x7
    = mmAddRelu (val_main_v9 (F := Ideal) x0 x1 x2 x6 : S32768x2048.Idx → EReal)
        (val_main_v69 (F := Ideal) x0 x1 x2 x3 x4 x6 x7 : S32768x2048.Idx → EReal) (x7 : S2048x2048.Idx → EReal) := by
  funext i
  show max (val_main_v9 (F := Ideal) x0 x1 x2 x6 i + val_main_v70 (F := Ideal) x0 x1 x2 x3 x4 x6 x7 i) (val_main_call3_v0 (F := Ideal) i)
    = max (val_main_v9 (F := Ideal) x0 x1 x2 x6 i
        + LibDense.prod (val_main_v69 (F := Ideal) x0 x1 x2 x3 x4 x6 x7 : S32768x2048.Idx → EReal) (x7 : S2048x2048.Idx → EReal) i) zeroW
  exact congrArg₂ max (congrArg (val_main_v9 (F := Ideal) x0 x1 x2 x6 i + ·)
      (LibDense.dotGeneral_plain _ (val_main_v69 (F := Ideal) x0 x1 x2 x3 x4 x6 x7) x7 i))
    ((val_main_call3_v0_apply i).trans rfl)

/-- The fourth update. -/
theorem h4_eq : val_main_v93 (F := Ideal) x0 x1 x2 x3 x4 x6 x7
    = mmAddRelu (val_main_v9 (F := Ideal) x0 x1 x2 x6 : S32768x2048.Idx → EReal)
        (val_main_v90 (F := Ideal) x0 x1 x2 x3 x4 x6 x7 : S32768x2048.Idx → EReal) (x7 : S2048x2048.Idx → EReal) := by
  funext i
  show max (val_main_v9 (F := Ideal) x0 x1 x2 x6 i + val_main_v91 (F := Ideal) x0 x1 x2 x3 x4 x6 x7 i) (val_main_call4_v0 (F := Ideal) i)
    = max (val_main_v9 (F := Ideal) x0 x1 x2 x6 i
        + LibDense.prod (val_main_v90 (F := Ideal) x0 x1 x2 x3 x4 x6 x7 : S32768x2048.Idx → EReal) (x7 : S2048x2048.Idx → EReal) i) zeroW
  exact congrArg₂ max (congrArg (val_main_v9 (F := Ideal) x0 x1 x2 x6 i + ·)
      (LibDense.dotGeneral_plain _ (val_main_v90 (F := Ideal) x0 x1 x2 x3 x4 x6 x7) x7 i))
    ((val_main_call4_v0_apply i).trans rfl)

/-- The vector b_o broadcast to a row and then down the rows, at (r, j), is the vector laid out as a row at (0, j). -/
theorem bias_eq (h : S2048.ShapeCasts S1x2048) (i : S16384x2048.Idx) :
    val_main_v100 (F := Ideal) x9 i = shapeCast S1x2048 (x9 : S2048.Idx → EReal) h (ix2 ⟨0, Nat.one_pos⟩ (i 1)) := by
  rw [val_main_v100_apply, val_main_v99_apply, LibBiasRows.row_of_vector (x9 : S2048.Idx → EReal) h (i 1)]
  exact congrArg x9 (funext fun a => Fin.ext (by
    match a with
    | ⟨0, _⟩ => rfl))

/-- The atom hidden states: relu ([V | M_v]·W_o + b_o). -/
theorem hv_eq (h : S2048.ShapeCasts S1x2048) : val_main_v102 (F := Ideal) x0 x1 x2 x3 x4 x6 x7 x8 x9
    = mmBiasRelu (val_main_v97 (F := Ideal) x0 x1 x2 x3 x4 x6 x7 : S16384x2120.Idx → EReal) (x8 : S2120x2048.Idx → EReal)
        (shapeCast S1x2048 (x9 : S2048.Idx → EReal) h) := by
  funext i
  show max (val_main_v98 (F := Ideal) x0 x1 x2 x3 x4 x6 x7 x8 i + val_main_v100 (F := Ideal) x9 i) (val_main_call5_v0 (F := Ideal) i)
    = max (LibDense.prod (val_main_v97 (F := Ideal) x0 x1 x2 x3 x4 x6 x7 : S16384x2120.Idx → EReal) (x8 : S2120x2048.Idx → EReal) i
        + shapeCast S1x2048 (x9 : S2048.Idx → EReal) h (ix2 ⟨0, Nat.one_pos⟩ (i 1))) zeroW
  exact congrArg₂ max (congrArg₂ (· + ·)
      (LibDense.dotGeneral_plain _ (val_main_v97 (F := Ideal) x0 x1 x2 x3 x4 x6 x7) x8 i) (bias_eq x9 h i))
    ((val_main_call5_v0_apply i).trans rfl)

end Cert.RefStage

end
-- ==== Proof.Arr0.lean ====
/-
  The first launch, from blocks to the array.

  The edge features x : [32768, 86] are cut into 64 bands of 512 rows; every grid point loads one band and the whole
  weight matrix w : [86, 2048] and writes the band of the same rows of the result.  Entry (r, j) of a band's product
  reads row r of the band, which is row 512·t + r of x, and column j of w; so what point t writes back is band t of
  ONE array, max (x·w) 0, and since the 64 bands cover the 32768 rows the array ends holding it.
-/
import proofs.«122672_j9036611190784_1_alg».proof.Proof.Gen.KernelIdeal.Frame
import proofs.«122672_j9036611190784_1_alg».proof.Proof.Stage

set_option maxRecDepth 16384

noncomputable section

namespace Cert.KernelIdeal.Arr0

open Cert.KernelIdeal Cert.KernelIdeal.Gen Cert.Stage
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The array the launch leaves: max (x·w) 0 of the two arrays its windows read. -/
abbrev G (c : Dev nD) : S32768x2048.Idx → EReal :=
  mmRelu (V c main_v12 : S32768x86.Idx → EReal) (V c main_v0 : S86x2048.Idx → EReal)

/-- The printed index maps over the grid: the features' band is the result's band, the weights' block is the one at the
    origin, the result's bands are numbered below 64. -/
theorem idx_facts : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 63 :=
  (by decide +kernel : ∀ t : Fin grid0.N, _)

/-- Every band is some point's. -/
theorem idx_onto : ∀ q0 : Fin 64, ∃ t : Fin cfg0.N, win0_2.index t = ![q0.val, 0] :=
  (by decide +kernel : ∀ q0 : Fin 64, ∃ t : Fin grid0.N, win0_2.index t = ![q0.val, 0])

/-- What point t writes back is band t of G. -/
theorem flushed_eq (c : Dev nD) (t : Fin cfg0.N) :
    (dat0 (F := Ideal) V c).flushed 2 t = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S512x86) hz, View.ld_unit_zero (S := S86x2048) hz]
  obtain ⟨e0, e1, e2, e3, e4, e5⟩ := idx_facts t
  funext j
  show k0_pay1 (iblk0 V c 0 t) (iblk0 V c 1 t) j = G V c (((cfg0.win 2).blk t).view.emb j)
  refine (pay0_apply (iblk0 V c 0 t) (iblk0 V c 1 t) j).trans ?_
  unfold mmRelu LibDense.prod
  refine congrArg (max · zeroW) (Finset.sum_congr rfl fun k _ => congrArg₂ (· * ·) ?_ ?_)
  · show V c main_v12 (((cfg0.win 0).blk t).view.emb (ix2 (j 0) k)) = _
    refine congrArg (V c main_v12) (funext fun a => Fin.ext ?_)
    match a with
    | ⟨0, _⟩ =>
      show win0_0.index t (0 : Fin 2) * 512 + 1 * (j 0).val = win0_2.index t (0 : Fin 2) * 512 + 1 * (j 0).val
      omega
    | ⟨1, _⟩ =>
      show win0_0.index t (1 : Fin 2) * 86 + 1 * k.val = k.val
      omega
  · show V c main_v0 (((cfg0.win 1).blk t).view.emb (ix2 k (j 1))) = _
    refine congrArg (V c main_v0) (funext fun a => Fin.ext ?_)
    match a with
    | ⟨0, _⟩ =>
      show win0_1.index t (0 : Fin 2) * 86 + 1 * k.val = k.val
      omega
    | ⟨1, _⟩ =>
      show win0_1.index t (1 : Fin 2) * 2048 + 1 * (j 1).val = win0_2.index t (1 : Fin 2) * 2048 + 1 * (j 1).val
      omega

/-- An index of the array is in point t's band iff each coordinate is in the band's range on its axis. -/
theorem mem_blk (t : Fin cfg0.N) (i : S32768x2048.Idx) :
    i ∈ ((cfg0.win 2).blk t).view.set ↔ ∀ a : Fin 2, win0_2.index t a * S512x2048.size a ≤ (i a).val
      ∧ (i a).val < win0_2.index t a * S512x2048.size a + S512x2048.size a := by
  show i ∈ ((View.whole main_v13).slice (win0_2.rect t)).set ↔ _
  rw [View.set_slice_whole, Rect.mem_set_unit]
  exact Iff.rfl

/-- The bands cover the array: row r is in band r / 512. -/
theorem cover (i : S32768x2048.Idx) :
    ∃ t : Fin cfg0.N, (cfg0.win 2).flush t = true ∧ i ∈ ((cfg0.win 2).blk t).view.set := by
  have hi0 : (i 0).val < 32768 := (i 0).isLt
  have hi1 : (i 1).val < 2048 := (i 1).isLt
  obtain ⟨t, ht⟩ := idx_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 2048 ≤ (i 1).val ∧ (i 1).val < win0_2.index t (1 : Fin 2) * 2048 + 2048
    omega

/-- The result array after the launch, whatever the buffers held at its entry: max (x·w) 0 of the arrays read. -/
theorem final (c : Dev nD) : (dat0 (F := Ideal) V c).arrAt 2 cfg0.N = G V c :=
  (dat0 (F := Ideal) V c).arrAt_eq_of_cover 2 (G V c) (fun t _ => flushed_eq V c t) (cover)

end Cert.KernelIdeal.Arr0

end
-- ==== Proof.Arr1.lean ====
/-
  A recurrent launch, from blocks to the array.

  The grid is 32 bands of 1024 rows by 4 strips of 512 columns.  Point (a, b) loads band a of the messages m : [32768, 2048]
  (all 2048 columns), strip b of the weights w : [2048, 2048] (all 2048 rows) and tile (a, b) of the initial hidden
  state h0, and writes tile (a, b) of the result.  Entry (r, q) of the tile's value  max (h0 + m·w) 0  reads h0 at the same
  entry of the array, row 1024·a + r of m and column 512·b + q of w: so what the point writes back is its tile of ONE array,
  and the 128 tiles cover it.
-/
import proofs.«122672_j9036611190784_1_alg».proof.Proof.Gen.KernelIdeal.Frame
import proofs.«122672_j9036611190784_1_alg».proof.Proof.Stage

set_option maxRecDepth 16384

noncomputable section

namespace Cert.KernelIdeal.Arr1

open Cert.KernelIdeal Cert.KernelIdeal.Gen Cert.Stage
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The array the launch leaves: max (h0 + m·w) 0 of the three arrays its windows read. -/
abbrev G (c : Dev nD) : S32768x2048.Idx → EReal :=
  mmAddRelu (V c main_v13 : S32768x2048.Idx → EReal) (V c main_v32 : S32768x2048.Idx → EReal) (V c main_v1 : S2048x2048.Idx → EReal)

/-- The printed index maps over the grid: h0's tile is the result's tile, the messages' band is the result's band at
    column block 0, the weights' strip is the result's strip at row block 0; the result's tiles are numbered (≤ 31, ≤ 3). -/
theorem idx_facts : ∀ t : Fin cfg1.N, win1_0.index t (0 : Fin 2) = win1_3.index t (0 : Fin 2)
    ∧ win1_0.index t (1 : Fin 2) = win1_3.index t (1 : Fin 2)
    ∧ win1_1.index t (0 : Fin 2) = win1_3.index t (0 : Fin 2) ∧ win1_1.index t (1 : Fin 2) = 0
    ∧ win1_2.index t (0 : Fin 2) = 0 ∧ win1_2.index t (1 : Fin 2) = win1_3.index t (1 : Fin 2)
    ∧ win1_3.index t (0 : Fin 2) ≤ 31 ∧ win1_3.index t (1 : Fin 2) ≤ 3 :=
  (by decide +kernel : ∀ t : Fin grid1.N, _)

/-- Every tile is some point's. -/
theorem idx_onto : ∀ (q0 : Fin 32) (q1 : Fin 4), ∃ t : Fin cfg1.N, win1_3.index t = ![q0.val, q1.val] :=
  (by decide +kernel : ∀ (q0 : Fin 32) (q1 : Fin 4), ∃ t : Fin grid1.N, win1_3.index t = ![q0.val, q1.val])

/-- What point t writes back is tile t of G. -/
theorem flushed_eq (c : Dev nD) (t : Fin cfg1.N) :
    (dat1 (F := Ideal) V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S1024x2048) hz, View.ld_unit_zero (S := S2048x512) hz, View.ld_unit_zero (S := S1024x512) hz]
  obtain ⟨e0, e1, e2, e3, e4, e5, e6, e7⟩ := idx_facts t
  funext j
  show k1_pay1 (iblk1 V c 1 t) (iblk1 V c 2 t) (iblk1 V c 0 t) j = G V c (((cfg1.win 3).blk t).view.emb j)
  refine (pay1_apply (iblk1 V c 1 t) (iblk1 V c 2 t) (iblk1 V c 0 t) j).trans ?_
  unfold mmAddRelu LibDense.prod
  refine congrArg (max · zeroW) (congrArg₂ (· + ·) ?_ (Finset.sum_congr rfl fun k _ => congrArg₂ (· * ·) ?_ ?_))
  · show V c main_v13 (((cfg1.win 0).blk t).view.emb j) = _
    refine congrArg (V c main_v13) (funext fun a => Fin.ext ?_)
    match a with
    | ⟨0, _⟩ =>
      show win1_0.index t (0 : Fin 2) * 1024 + 1 * (j 0).val = win1_3.index t (0 : Fin 2) * 1024 + 1 * (j 0).val
      omega
    | ⟨1, _⟩ =>
      show win1_0.index t (1 : Fin 2) * 512 + 1 * (j 1).val = win1_3.index t (1 : Fin 2) * 512 + 1 * (j 1).val
      omega
  · show V c main_v32 (((cfg1.win 1).blk t).view.emb (ix2 (j 0) k)) = _
    refine congrArg (V c main_v32) (funext fun a => Fin.ext ?_)
    match a with
    | ⟨0, _⟩ =>
      show win1_1.index t (0 : Fin 2) * 1024 + 1 * (j 0).val = win1_3.index t (0 : Fin 2) * 1024 + 1 * (j 0).val
      omega
    | ⟨1, _⟩ =>
      show win1_1.index t (1 : Fin 2) * 2048 + 1 * k.val = k.val
      omega
  · show V c main_v1 (((cfg1.win 2).blk t).view.emb (ix2 k (j 1))) = _
    refine congrArg (V c main_v1) (funext fun a => Fin.ext ?_)
    match a with
    | ⟨0, _⟩ =>
      show win1_2.index t (0 : Fin 2) * 2048 + 1 * k.val = k.val
      omega
    | ⟨1, _⟩ =>
      show win1_2.index t (1 : Fin 2) * 512 + 1 * (j 1).val = win1_3.index t (1 : Fin 2) * 512 + 1 * (j 1).val
      omega

/-- An index of the array is in point t's tile iff each coordinate is in the tile's range on its axis. -/
theorem mem_blk (t : Fin cfg1.N) (i : S32768x2048.Idx) :
    i ∈ ((cfg1.win 3).blk t).view.set ↔ ∀ a : Fin 2, win1_3.index t a * S1024x512.size a ≤ (i a).val
      ∧ (i a).val < win1_3.index t a * S1024x512.size a + S1024x512.size a := by
  show i ∈ ((View.whole main_v33).slice (win1_3.rect t)).set ↔ _
  rw [View.set_slice_whole, Rect.mem_set_unit]
  exact Iff.rfl

/-- The tiles cover the array: entry (r, q) is in tile (r / 1024, q / 512). -/
theorem cover (i : S32768x2048.Idx) :
    ∃ t : Fin cfg1.N, (cfg1.win 3).flush t = true ∧ i ∈ ((cfg1.win 3).blk t).view.set := by
  have hi0 : (i 0).val < 32768 := (i 0).isLt
  have hi1 : (i 1).val < 2048 := (i 1).isLt
  obtain ⟨t, ht⟩ := idx_onto ⟨(i 0).val / 1024, by omega⟩ ⟨(i 1).val / 512, by omega⟩
  have q0 : win1_3.index t (0 : Fin 2) = (i 0).val / 1024 := congrFun ht 0
  have q1 : win1_3.index t (1 : Fin 2) = (i 1).val / 512 := congrFun ht 1
  refine ⟨t, flush1_3 t, ?_⟩
  rw [mem_blk]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 512 ≤ (i 1).val ∧ (i 1).val < win1_3.index t (1 : Fin 2) * 512 + 512
    omega

/-- The result array after the launch, whatever the buffers held at its entry: max (h0 + m·w) 0 of the arrays read. -/
theorem final (c : Dev nD) : (dat1 (F := Ideal) V c).arrAt 3 cfg1.N = G V c :=
  (dat1 (F := Ideal) V c).arrAt_eq_of_cover 3 (G V c) (fun t _ => flushed_eq V c t) (cover)

end Cert.KernelIdeal.Arr1

end
-- ==== Proof.Arr2.lean ====
/-
  A recurrent launch, from blocks to the array.

  The grid is 32 bands of 1024 rows by 4 strips of 512 columns.  Point (a, b) loads band a of the messages m : [32768, 2048]
  (all 2048 columns), strip b of the weights w : [2048, 2048] (all 2048 rows) and tile (a, b) of the initial hidden
  state h0, and writes tile (a, b) of the result.  Entry (r, q) of the tile's value  max (h0 + m·w) 0  reads h0 at the same
  entry of the array, row 1024·a + r of m and column 512·b + q of w: so what the point writes back is its tile of ONE array,
  and the 128 tiles cover it.
-/
import proofs.«122672_j9036611190784_1_alg».proof.Proof.Gen.KernelIdeal.Frame
import proofs.«122672_j9036611190784_1_alg».proof.Proof.Stage

set_option maxRecDepth 16384

noncomputable section

namespace Cert.KernelIdeal.Arr2

open Cert.KernelIdeal Cert.KernelIdeal.Gen Cert.Stage
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The array the launch leaves: max (h0 + m·w) 0 of the three arrays its windows read. -/
abbrev G (c : Dev nD) : S32768x2048.Idx → EReal :=
  mmAddRelu (V c main_v13 : S32768x2048.Idx → EReal) (V c main_v52 : S32768x2048.Idx → EReal) (V c main_v1 : S2048x2048.Idx → EReal)

/-- The printed index maps over the grid: h0's tile is the result's tile, the messages' band is the result's band at
    column block 0, the weights' strip is the result's strip at row block 0; the result's tiles are numbered (≤ 31, ≤ 3). -/
theorem idx_facts : ∀ t : Fin cfg2.N, win2_0.index t (0 : Fin 2) = win2_3.index t (0 : Fin 2)
    ∧ win2_0.index t (1 : Fin 2) = win2_3.index t (1 : Fin 2)
    ∧ win2_1.index t (0 : Fin 2) = win2_3.index t (0 : Fin 2) ∧ win2_1.index t (1 : Fin 2) = 0
    ∧ win2_2.index t (0 : Fin 2) = 0 ∧ win2_2.index t (1 : Fin 2) = win2_3.index t (1 : Fin 2)
    ∧ win2_3.index t (0 : Fin 2) ≤ 31 ∧ win2_3.index t (1 : Fin 2) ≤ 3 :=
  (by decide +kernel : ∀ t : Fin grid2.N, _)

/-- Every tile is some point's. -/
theorem idx_onto : ∀ (q0 : Fin 32) (q1 : Fin 4), ∃ t : Fin cfg2.N, win2_3.index t = ![q0.val, q1.val] :=
  (by decide +kernel : ∀ (q0 : Fin 32) (q1 : Fin 4), ∃ t : Fin grid2.N, win2_3.index t = ![q0.val, q1.val])

/-- What point t writes back is tile t of G. -/
theorem flushed_eq (c : Dev nD) (t : Fin cfg2.N) :
    (dat2 (F := Ideal) V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S1024x2048) hz, View.ld_unit_zero (S := S2048x512) hz, View.ld_unit_zero (S := S1024x512) hz]
  obtain ⟨e0, e1, e2, e3, e4, e5, e6, e7⟩ := idx_facts t
  funext j
  show k2_pay1 (iblk2 V c 1 t) (iblk2 V c 2 t) (iblk2 V c 0 t) j = G V c (((cfg2.win 3).blk t).view.emb j)
  refine (pay2_apply (iblk2 V c 1 t) (iblk2 V c 2 t) (iblk2 V c 0 t) j).trans ?_
  unfold mmAddRelu LibDense.prod
  refine congrArg (max · zeroW) (congrArg₂ (· + ·) ?_ (Finset.sum_congr rfl fun k _ => congrArg₂ (· * ·) ?_ ?_))
  · show V c main_v13 (((cfg2.win 0).blk t).view.emb j) = _
    refine congrArg (V c main_v13) (funext fun a => Fin.ext ?_)
    match a with
    | ⟨0, _⟩ =>
      show win2_0.index t (0 : Fin 2) * 1024 + 1 * (j 0).val = win2_3.index t (0 : Fin 2) * 1024 + 1 * (j 0).val
      omega
    | ⟨1, _⟩ =>
      show win2_0.index t (1 : Fin 2) * 512 + 1 * (j 1).val = win2_3.index t (1 : Fin 2) * 512 + 1 * (j 1).val
      omega
  · show V c main_v52 (((cfg2.win 1).blk t).view.emb (ix2 (j 0) k)) = _
    refine congrArg (V c main_v52) (funext fun a => Fin.ext ?_)
    match a with
    | ⟨0, _⟩ =>
      show win2_1.index t (0 : Fin 2) * 1024 + 1 * (j 0).val = win2_3.index t (0 : Fin 2) * 1024 + 1 * (j 0).val
      omega
    | ⟨1, _⟩ =>
      show win2_1.index t (1 : Fin 2) * 2048 + 1 * k.val = k.val
      omega
  · show V c main_v1 (((cfg2.win 2).blk t).view.emb (ix2 k (j 1))) = _
    refine congrArg (V c main_v1) (funext fun a => Fin.ext ?_)
    match a with
    | ⟨0, _⟩ =>
      show win2_2.index t (0 : Fin 2) * 2048 + 1 * k.val = k.val
      omega
    | ⟨1, _⟩ =>
      show win2_2.index t (1 : Fin 2) * 512 + 1 * (j 1).val = win2_3.index t (1 : Fin 2) * 512 + 1 * (j 1).val
      omega

/-- An index of the array is in point t's tile iff each coordinate is in the tile's range on its axis. -/
theorem mem_blk (t : Fin cfg2.N) (i : S32768x2048.Idx) :
    i ∈ ((cfg2.win 3).blk t).view.set ↔ ∀ a : Fin 2, win2_3.index t a * S1024x512.size a ≤ (i a).val
      ∧ (i a).val < win2_3.index t a * S1024x512.size a + S1024x512.size a := by
  show i ∈ ((View.whole main_v53).slice (win2_3.rect t)).set ↔ _
  rw [View.set_slice_whole, Rect.mem_set_unit]
  exact Iff.rfl

/-- The tiles cover the array: entry (r, q) is in tile (r / 1024, q / 512). -/
theorem cover (i : S32768x2048.Idx) :
    ∃ t : Fin cfg2.N, (cfg2.win 3).flush t = true ∧ i ∈ ((cfg2.win 3).blk t).view.set := by
  have hi0 : (i 0).val < 32768 := (i 0).isLt
  have hi1 : (i 1).val < 2048 := (i 1).isLt
  obtain ⟨t, ht⟩ := idx_onto ⟨(i 0).val / 1024, by omega⟩ ⟨(i 1).val / 512, by omega⟩
  have q0 : win2_3.index t (0 : Fin 2) = (i 0).val / 1024 := congrFun ht 0
  have q1 : win2_3.index t (1 : Fin 2) = (i 1).val / 512 := congrFun ht 1
  refine ⟨t, flush2_3 t, ?_⟩
  rw [mem_blk]
  intro a
  match a with
  | ⟨0, _⟩ =>
    show win2_3.index t (0 : Fin 2) * 1024 ≤ (i 0).val ∧ (i 0).val < win2_3.index t (0 : Fin 2) * 1024 + 1024
    omega
  | ⟨1, _⟩ =>
    show win2_3.index t (1 : Fin 2) * 512 ≤ (i 1).val ∧ (i 1).val < win2_3.index t (1 : Fin 2) * 512 + 512
    omega

/-- The result array after the launch, whatever the buffers held at its entry: max (h0 + m·w) 0 of the arrays read. -/
theorem final (c : Dev nD) : (dat2 (F := Ideal) V c).arrAt 3 cfg2.N = G V c :=
  (dat2 (F := Ideal) V c).arrAt_eq_of_cover 3 (G V c) (fun t _ => flushed_eq V c t) (cover)

end Cert.KernelIdeal.Arr2

end
-- ==== Proof.Arr3.lean ====
/-
  A recurrent launch, from blocks to the array.

  The grid is 32 bands of 1024 rows by 4 strips of 512 columns.  Point (a, b) loads band a of the messages m : [32768, 2048]
  (all 2048 columns), strip b of the weights w : [2048, 2048] (all 2048 rows) and tile (a, b) of the initial hidden
  state h0, and writes tile (a, b) of the result.  Entry (r, q) of the tile's value  max (h0 + m·w) 0  reads h0 at the same
  entry of the array, row 1024·a + r of m and column 512·b + q of w: so what the point writes back is its tile of ONE array,
  and the 128 tiles cover it.
-/
import proofs.«122672_j9036611190784_1_alg».proof.Proof.Gen.KernelIdeal.Frame
import proofs.«122672_j9036611190784_1_alg».proof.Proof.Stage

set_option maxRecDepth 16384

noncomputable section

namespace Cert.KernelIdeal.Arr3

open Cert.KernelIdeal Cert.KernelIdeal.Gen Cert.Stage
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The array the launch leaves: max (h0 + m·w) 0 of the three arrays its windows read. -/
abbrev G (c : Dev nD) : S32768x2048.Idx → EReal :=
  mmAddRelu (V c main_v13 : S32768x2048.Idx → EReal) (V c main_v72 : S32768x2048.Idx → EReal) (V c main_v1 : S2048x2048.Idx → EReal)

/-- The printed index maps over the grid: h0's tile is the result's tile, the messages' band is the result's band at
    column block 0, the weights' strip is the result's strip at row block 0; the result's tiles are numbered (≤ 31, ≤ 3). -/
theorem idx_facts : ∀ t : Fin cfg3.N, win3_0.index t (0 : Fin 2) = win3_3.index t (0 : Fin 2)
    ∧ win3_0.index t (1 : Fin 2) = win3_3.index t (1 : Fin 2)
    ∧ win3_1.index t (0 : Fin 2) = win3_3.index t (0 : Fin 2) ∧ win3_1.index t (1 : Fin 2) = 0
    ∧ win3_2.index t (0 : Fin 2) = 0 ∧ win3_2.index t (1 : Fin 2) = win3_3.index t (1 : Fin 2)
    ∧ win3_3.index t (0 : Fin 2) ≤ 31 ∧ win3_3.index t (1 : Fin 2) ≤ 3 :=
  (by decide +kernel : ∀ t : Fin grid3.N, _)

/-- Every tile is some point's. -/
theorem idx_onto : ∀ (q0 : Fin 32) (q1 : Fin 4), ∃ t : Fin cfg3.N, win3_3.index t = ![q0.val, q1.val] :=
  (by decide +kernel : ∀ (q0 : Fin 32) (q1 : Fin 4), ∃ t : Fin grid3.N, win3_3.index t = ![q0.val, q1.val])

/-- What point t writes back is tile t of G. -/
theorem flushed_eq (c : Dev nD) (t : Fin cfg3.N) :
    (dat3 (F := Ideal) V c).flushed 3 t = ((cfg3.win 3).blk t).view.read (Elt Ideal) (G V c) := by
  show (cfg3.win 3).cut (grid3.coords t) ((dat3 V c).after 3 t) = _
  rw [after3_3]
  unfold out3_3
  rw [View.canon_unit_zero hz]
  simp only [View.ld_unit_zero (S := S1024x2048) hz, View.ld_unit_zero (S := S2048x512) hz, View.ld_unit_zero (S := S1024x512) hz]
  obtain ⟨e0, e1, e2, e3, e4, e5, e6, e7⟩ := idx_facts t
  funext j
  show k3_pay1 (iblk3 V c 1 t) (iblk3 V c 2 t) (iblk3 V c 0 t) j = G V c (((cfg3.win 3).blk t).view.emb j)
  refine (pay3_apply (iblk3 V c 1 t) (iblk3 V c 2 t) (iblk3 V c 0 t) j).trans ?_
  unfold mmAddRelu LibDense.prod
  refine congrArg (max · zeroW) (congrArg₂ (· + ·) ?_ (Finset.sum_congr rfl fun k _ => congrArg₂ (· * ·) ?_ ?_))
  · show V c main_v13 (((cfg3.win 0).blk t).view.emb j) = _
    refine congrArg (V c main_v13) (funext fun a => Fin.ext ?_)
    match a with
    | ⟨0, _⟩ =>
      show win3_0.index t (0 : Fin 2) * 1024 + 1 * (j 0).val = win3_3.index t (0 : Fin 2) * 1024 + 1 * (j 0).val
      omega
    | ⟨1, _⟩ =>
      show win3_0.index t (1 : Fin 2) * 512 + 1 * (j 1).val = win3_3.index t (1 : Fin 2) * 512 + 1 * (j 1).val
      omega
  · show V c main_v72 (((cfg3.win 1).blk t).view.emb (ix2 (j 0) k)) = _
    refine congrArg (V c main_v72) (funext fun a => Fin.ext ?_)
    match a with
    | ⟨0, _⟩ =>
      show win3_1.index t (0 : Fin 2) * 1024 + 1 * (j 0).val = win3_3.index t (0 : Fin 2) * 1024 + 1 * (j 0).val
      omega
    | ⟨1, _⟩ =>
      show win3_1.index t (1 : Fin 2) * 2048 + 1 * k.val = k.val
      omega
  · show V c main_v1 (((cfg3.win 2).blk t).view.emb (ix2 k (j 1))) = _
    refine congrArg (V c main_v1) (funext fun a => Fin.ext ?_)
    match a with
    | ⟨0, _⟩ =>
      show win3_2.index t (0 : Fin 2) * 2048 + 1 * k.val = k.val
      omega
    | ⟨1, _⟩ =>
      show win3_2.index t (1 : Fin 2) * 512 + 1 * (j 1).val = win3_3.index t (1 : Fin 2) * 512 + 1 * (j 1).val
      omega

/-- An index of the array is in point t's tile iff each coordinate is in the tile's range on its axis. -/
theorem mem_blk (t : Fin cfg3.N) (i : S32768x2048.Idx) :
    i ∈ ((cfg3.win 3).blk t).view.set ↔ ∀ a : Fin 2, win3_3.index t a * S1024x512.size a ≤ (i a).val
      ∧ (i a).val < win3_3.index t a * S1024x512.size a + S1024x512.size a := by
  show i ∈ ((View.whole main_v73).slice (win3_3.rect t)).set ↔ _
  rw [View.set_slice_whole, Rect.mem_set_unit]
  exact Iff.rfl

/-- The tiles cover the array: entry (r, q) is in tile (r / 1024, q / 512). -/
theorem cover (i : S32768x2048.Idx) :
    ∃ t : Fin cfg3.N, (cfg3.win 3).flush t = true ∧ i ∈ ((cfg3.win 3).blk t).view.set := by
  have hi0 : (i 0).val < 32768 := (i 0).isLt
  have hi1 : (i 1).val < 2048 := (i 1).isLt
  obtain ⟨t, ht⟩ := idx_onto ⟨(i 0).val / 1024, by omega⟩ ⟨(i 1).val / 512, by omega⟩
  have q0 : win3_3.index t (0 : Fin 2) = (i 0).val / 1024 := congrFun ht 0
  have q1 : win3_3.index t (1 : Fin 2) = (i 1).val / 512 := congrFun ht 1
  refine ⟨t, flush3_3 t, ?_⟩
  rw [mem_blk]
  intro a
  match a with
  | ⟨0, _⟩ =>
    show win3_3.index t (0 : Fin 2) * 1024 ≤ (i 0).val ∧ (i 0).val < win3_3.index t (0 : Fin 2) * 1024 + 1024
    omega
  | ⟨1, _⟩ =>
    show win3_3.index t (1 : Fin 2) * 512 ≤ (i 1).val ∧ (i 1).val < win3_3.index t (1 : Fin 2) * 512 + 512
    omega

/-- The result array after the launch, whatever the buffers held at its entry: max (h0 + m·w) 0 of the arrays read. -/
theorem final (c : Dev nD) : (dat3 (F := Ideal) V c).arrAt 3 cfg3.N = G V c :=
  (dat3 (F := Ideal) V c).arrAt_eq_of_cover 3 (G V c) (fun t _ => flushed_eq V c t) (cover)

end Cert.KernelIdeal.Arr3

end
-- ==== Proof.Arr4.lean ====
/-
  A recurrent launch, from blocks to the array.

  The grid is 32 bands of 1024 rows by 4 strips of 512 columns.  Point (a, b) loads band a of the messages m : [32768, 2048]
  (all 2048 columns), strip b of the weights w : [2048, 2048] (all 2048 rows) and tile (a, b) of the initial hidden
  state h0, and writes tile (a, b) of the result.  Entry (r, q) of the tile's value  max (h0 + m·w) 0  reads h0 at the same
  entry of the array, row 1024·a + r of m and column 512·b + q of w: so what the point writes back is its tile of ONE array,
  and the 128 tiles cover it.
-/
import proofs.«122672_j9036611190784_1_alg».proof.Proof.Gen.KernelIdeal.Frame
import proofs.«122672_j9036611190784_1_alg».proof.Proof.Stage

set_option maxRecDepth 16384

noncomputable section

namespace Cert.KernelIdeal.Arr4

open Cert.KernelIdeal Cert.KernelIdeal.Gen Cert.Stage
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The array the launch leaves: max (h0 + m·w) 0 of the three arrays its windows read. -/
abbrev G (c : Dev nD) : S32768x2048.Idx → EReal :=
  mmAddRelu (V c main_v13 : S32768x2048.Idx → EReal) (V c main_v92 : S32768x2048.Idx → EReal) (V c main_v1 : S2048x2048.Idx → EReal)

/-- The printed index maps over the grid: h0's tile is the result's tile, the messages' band is the result's band at
    column block 0, the weights' strip is the result's strip at row block 0; the result's tiles are numbered (≤ 31, ≤ 3). -/
theorem idx_facts : ∀ t : Fin cfg4.N, win4_0.index t (0 : Fin 2) = win4_3.index t (0 : Fin 2)
    ∧ win4_0.index t (1 : Fin 2) = win4_3.index t (1 : Fin 2)
    ∧ win4_1.index t (0 : Fin 2) = win4_3.index t (0 : Fin 2) ∧ win4_1.index t (1 : Fin 2) = 0
    ∧ win4_2.index t (0 : Fin 2) = 0 ∧ win4_2.index t (1 : Fin 2) = win4_3.index t (1 : Fin 2)
    ∧ win4_3.index t (0 : Fin 2) ≤ 31 ∧ win4_3.index t (1 : Fin 2) ≤ 3 :=
  (by decide +kernel : ∀ t : Fin grid4.N, _)

/-- Every tile is some point's. -/
theorem idx_onto : ∀ (q0 : Fin 32) (q1 : Fin 4), ∃ t : Fin cfg4.N, win4_3.index t = ![q0.val, q1.val] :=
  (by decide +kernel : ∀ (q0 : Fin 32) (q1 : Fin 4), ∃ t : Fin grid4.N, win4_3.index t = ![q0.val, q1.val])

/-- What point t writes back is tile t of G. -/
theorem flushed_eq (c : Dev nD) (t : Fin cfg4.N) :
    (dat4 (F := Ideal) V c).flushed 3 t = ((cfg4.win 3).blk t).view.read (Elt Ideal) (G V c) := by
  show (cfg4.win 3).cut (grid4.coords t) ((dat4 V c).after 3 t) = _
  rw [after4_3]
  unfold out4_3
  rw [View.canon_unit_zero hz]
  simp only [View.ld_unit_zero (S := S1024x2048) hz, View.ld_unit_zero (S := S2048x512) hz, View.ld_unit_zero (S := S1024x512) hz]
  obtain ⟨e0, e1, e2, e3, e4, e5, e6, e7⟩ := idx_facts t
  funext j
  show k4_pay1 (iblk4 V c 1 t) (iblk4 V c 2 t) (iblk4 V c 0 t) j = G V c (((cfg4.win 3).blk t).view.emb j)
  refine (pay4_apply (iblk4 V c 1 t) (iblk4 V c 2 t) (iblk4 V c 0 t) j).trans ?_
  unfold mmAddRelu LibDense.prod
  refine congrArg (max · zeroW) (congrArg₂ (· + ·) ?_ (Finset.sum_congr rfl fun k _ => congrArg₂ (· * ·) ?_ ?_))
  · show V c main_v13 (((cfg4.win 0).blk t).view.emb j) = _
    refine congrArg (V c main_v13) (funext fun a => Fin.ext ?_)
    match a with
    | ⟨0, _⟩ =>
      show win4_0.index t (0 : Fin 2) * 1024 + 1 * (j 0).val = win4_3.index t (0 : Fin 2) * 1024 + 1 * (j 0).val
      omega
    | ⟨1, _⟩ =>
      show win4_0.index t (1 : Fin 2) * 512 + 1 * (j 1).val = win4_3.index t (1 : Fin 2) * 512 + 1 * (j 1).val
      omega
  · show V c main_v92 (((cfg4.win 1).blk t).view.emb (ix2 (j 0) k)) = _
    refine congrArg (V c main_v92) (funext fun a => Fin.ext ?_)
    match a with
    | ⟨0, _⟩ =>
      show win4_1.index t (0 : Fin 2) * 1024 + 1 * (j 0).val = win4_3.index t (0 : Fin 2) * 1024 + 1 * (j 0).val
      omega
    | ⟨1, _⟩ =>
      show win4_1.index t (1 : Fin 2) * 2048 + 1 * k.val = k.val
      omega
  · show V c main_v1 (((cfg4.win 2).blk t).view.emb (ix2 k (j 1))) = _
    refine congrArg (V c main_v1) (funext fun a => Fin.ext ?_)
    match a with
    | ⟨0, _⟩ =>
      show win4_2.index t (0 : Fin 2) * 2048 + 1 * k.val = k.val
      omega
    | ⟨1, _⟩ =>
      show win4_2.index t (1 : Fin 2) * 512 + 1 * (j 1).val = win4_3.index t (1 : Fin 2) * 512 + 1 * (j 1).val
      omega

/-- An index of the array is in point t's tile iff each coordinate is in the tile's range on its axis. -/
theorem mem_blk (t : Fin cfg4.N) (i : S32768x2048.Idx) :
    i ∈ ((cfg4.win 3).blk t).view.set ↔ ∀ a : Fin 2, win4_3.index t a * S1024x512.size a ≤ (i a).val
      ∧ (i a).val < win4_3.index t a * S1024x512.size a + S1024x512.size a := by
  show i ∈ ((View.whole main_v93).slice (win4_3.rect t)).set ↔ _
  rw [View.set_slice_whole, Rect.mem_set_unit]
  exact Iff.rfl

/-- The tiles cover the array: entry (r, q) is in tile (r / 1024, q / 512). -/
theorem cover (i : S32768x2048.Idx) :
    ∃ t : Fin cfg4.N, (cfg4.win 3).flush t = true ∧ i ∈ ((cfg4.win 3).blk t).view.set := by
  have hi0 : (i 0).val < 32768 := (i 0).isLt
  have hi1 : (i 1).val < 2048 := (i 1).isLt
  obtain ⟨t, ht⟩ := idx_onto ⟨(i 0).val / 1024, by omega⟩ ⟨(i 1).val / 512, by omega⟩
  have q0 : win4_3.index t (0 : Fin 2) = (i 0).val / 1024 := congrFun ht 0
  have q1 : win4_3.index t (1 : Fin 2) = (i 1).val / 512 := congrFun ht 1
  refine ⟨t, flush4_3 t, ?_⟩
  rw [mem_blk]
  intro a
  match a with
  | ⟨0, _⟩ =>
    show win4_3.index t (0 : Fin 2) * 1024 ≤ (i 0).val ∧ (i 0).val < win4_3.index t (0 : Fin 2) * 1024 + 1024
    omega
  | ⟨1, _⟩ =>
    show win4_3.index t (1 : Fin 2) * 512 ≤ (i 1).val ∧ (i 1).val < win4_3.index t (1 : Fin 2) * 512 + 512
    omega

/-- The result array after the launch, whatever the buffers held at its entry: max (h0 + m·w) 0 of the arrays read. -/
theorem final (c : Dev nD) : (dat4 (F := Ideal) V c).arrAt 3 cfg4.N = G V c :=
  (dat4 (F := Ideal) V c).arrAt_eq_of_cover 3 (G V c) (fun t _ => flushed_eq V c t) (cover)

end Cert.KernelIdeal.Arr4

end
-- ==== Proof.Arr5.lean ====
/-
  The last launch, from blocks to the array.

  The atom features x : [16384, 2120] are cut into 32 bands of 512 rows; every grid point loads one band, the whole
  weight matrix w : [2120, 2048] and the bias row b : [1, 2048], and writes the band of the same rows of the result.
  Entry (r, j) of a band's value  max (x·w + b) 0  reads row 512·t + r of x, column j of w and b (0, j): what point t
  writes back is band t of ONE array, and the 32 bands cover the 16384 rows.
-/
import proofs.«122672_j9036611190784_1_alg».proof.Proof.Gen.KernelIdeal.Frame
import proofs.«122672_j9036611190784_1_alg».proof.Proof.Stage

set_option maxRecDepth 16384

noncomputable section

namespace Cert.KernelIdeal.Arr5

open Cert.KernelIdeal Cert.KernelIdeal.Gen Cert.Stage
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The array the launch leaves: max (x·w + b) 0 of the three arrays its windows read. -/
abbrev G (c : Dev nD) : S16384x2048.Idx → EReal :=
  mmBiasRelu (V c main_v98 : S16384x2120.Idx → EReal) (V c main_v2 : S2120x2048.Idx → EReal) (V c main_v3 : S1x2048.Idx → EReal)

/-- The printed index maps over the grid: the features' band is the result's band, the weights' and the bias's blocks
    are the ones at the origin, the result's bands are numbered below 32. -/
theorem idx_facts : ∀ t : Fin cfg5.N, win5_0.index t (0 : Fin 2) = win5_3.index t (0 : Fin 2)
    ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (1 : Fin 2) = 0 ∧ win5_3.index t (0 : Fin 2) ≤ 31 :=
  (by decide +kernel : ∀ t : Fin grid5.N, _)

/-- Every band is some point's. -/
theorem idx_onto : ∀ q0 : Fin 32, ∃ t : Fin cfg5.N, win5_3.index t = ![q0.val, 0] :=
  (by decide +kernel : ∀ q0 : Fin 32, ∃ t : Fin grid5.N, win5_3.index t = ![q0.val, 0])

/-- What point t writes back is band t of G. -/
theorem flushed_eq (c : Dev nD) (t : Fin cfg5.N) :
    (dat5 (F := Ideal) V c).flushed 3 t = ((cfg5.win 3).blk t).view.read (Elt Ideal) (G V c) := by
  show (cfg5.win 3).cut (grid5.coords t) ((dat5 V c).after 3 t) = _
  rw [after5_3]
  unfold out5_3
  rw [View.canon_unit_zero hz]
  simp only [View.ld_unit_zero (S := S512x2120) hz, View.ld_unit_zero (S := S2120x2048) hz, View.ld_unit_zero (S := S1x2048) hz]
  obtain ⟨e0, e1, e2, e3, e4, e5, e6, e7⟩ := idx_facts t
  funext j
  show k5_pay1 (iblk5 V c 0 t) (iblk5 V c 1 t) (iblk5 V c 2 t) j = G V c (((cfg5.win 3).blk t).view.emb j)
  refine (pay5_apply (iblk5 V c 0 t) (iblk5 V c 1 t) (iblk5 V c 2 t) j).trans ?_
  unfold mmBiasRelu LibDense.prod
  refine congrArg (max · zeroW) (congrArg₂ (· + ·) (Finset.sum_congr rfl fun k _ => congrArg₂ (· * ·) ?_ ?_) ?_)
  · show V c main_v98 (((cfg5.win 0).blk t).view.emb (ix2 (j 0) k)) = _
    refine congrArg (V c main_v98) (funext fun a => Fin.ext ?_)
    match a with
    | ⟨0, _⟩ =>
      show win5_0.index t (0 : Fin 2) * 512 + 1 * (j 0).val = win5_3.index t (0 : Fin 2) * 512 + 1 * (j 0).val
      omega
    | ⟨1, _⟩ =>
      show win5_0.index t (1 : Fin 2) * 2120 + 1 * k.val = k.val
      omega
  · show V c main_v2 (((cfg5.win 1).blk t).view.emb (ix2 k (j 1))) = _
    refine congrArg (V c main_v2) (funext fun a => Fin.ext ?_)
    match a with
    | ⟨0, _⟩ =>
      show win5_1.index t (0 : Fin 2) * 2120 + 1 * k.val = k.val
      omega
    | ⟨1, _⟩ =>
      show win5_1.index t (1 : Fin 2) * 2048 + 1 * (j 1).val = win5_3.index t (1 : Fin 2) * 2048 + 1 * (j 1).val
      omega
  · show V c main_v3 (((cfg5.win 2).blk t).view.emb (ix2 ⟨0, Nat.one_pos⟩ (j 1))) = _
    refine congrArg (V c main_v3) (funext fun a => Fin.ext ?_)
    match a with
    | ⟨0, _⟩ =>
      show win5_2.index t (0 : Fin 2) * 1 + 1 * 0 = 0
      omega
    | ⟨1, _⟩ =>
      show win5_2.index t (1 : Fin 2) * 2048 + 1 * (j 1).val = win5_3.index t (1 : Fin 2) * 2048 + 1 * (j 1).val
      omega

/-- An index of the array is in point t's band iff each coordinate is in the band's range on its axis. -/
theorem mem_blk (t : Fin cfg5.N) (i : S16384x2048.Idx) :
    i ∈ ((cfg5.win 3).blk t).view.set ↔ ∀ a : Fin 2, win5_3.index t a * S512x2048.size a ≤ (i a).val
      ∧ (i a).val < win5_3.index t a * S512x2048.size a + S512x2048.size a := by
  show i ∈ ((View.whole main_v99).slice (win5_3.rect t)).set ↔ _
  rw [View.set_slice_whole, Rect.mem_set_unit]
  exact Iff.rfl

/-- The bands cover the array: row r is in band r / 512. -/
theorem cover (i : S16384x2048.Idx) :
    ∃ t : Fin cfg5.N, (cfg5.win 3).flush t = true ∧ i ∈ ((cfg5.win 3).blk t).view.set := by
  have hi0 : (i 0).val < 16384 := (i 0).isLt
  have hi1 : (i 1).val < 2048 := (i 1).isLt
  obtain ⟨t, ht⟩ := idx_onto ⟨(i 0).val / 512, by omega⟩
  have q0 : win5_3.index t (0 : Fin 2) = (i 0).val / 512 := congrFun ht 0
  have q1 : win5_3.index t (1 : Fin 2) = 0 := congrFun ht 1
  refine ⟨t, flush5_3 t, ?_⟩
  rw [mem_blk]
  intro a
  match a with
  | ⟨0, _⟩ =>
    show win5_3.index t (0 : Fin 2) * 512 ≤ (i 0).val ∧ (i 0).val < win5_3.index t (0 : Fin 2) * 512 + 512
    omega
  | ⟨1, _⟩ =>
    show win5_3.index t (1 : Fin 2) * 2048 ≤ (i 1).val ∧ (i 1).val < win5_3.index t (1 : Fin 2) * 2048 + 2048
    omega

/-- The result array after the launch, whatever the buffers held at its entry: max (x·w + b) 0 of the arrays read. -/
theorem final (c : Dev nD) : (dat5 (F := Ideal) V c).arrAt 3 cfg5.N = G V c :=
  (dat5 (F := Ideal) V c).arrAt_eq_of_cover 3 (G V c) (fun t _ => flushed_eq V c t) (cover)

end Cert.KernelIdeal.Arr5

end
-- ==== Proof.Chain.lean ====
/-
  The kernel's boundaries, one by one, hold the reference's stage values.

  Write x0 … x9 for the ten argument arrays.  The program alternates stretches of host operations with launches; the
  buffers' contents at each boundary are a fold from the launch memory.  A stretch's operations are the reference's own
  (the index wrap, the row gather, the segment sums, the concatenations), with a change of float format in front of each
  launch, which is the identity on the extended reals; a launch leaves in its result array one of the three matrix
  stages of the arrays it reads (the blocks-to-array modules), and leaves every other buffer as it found it.  So, going
  down the program:  the first launch's result is the reference's H0 = relu ([V[src] | E]·W_i);  each recurrent launch's
  result is the reference's next H = relu (H0 + (segsum(H)[src] − H[rev])·W_h);  the last launch's result is
  H_v = relu ([V | segsum(H)]·W_o + b_o);  and the host tail (per-molecule sums over counts) is the reference's, so the
  result buffer ends at the reference's result.  No step needs the inputs finite.
-/
import proofs.«122672_j9036611190784_1_alg».proof.Proof.Gen.KernelIdeal.Frame
import proofs.«122672_j9036611190784_1_alg».proof.Proof.Gen.ReferenceIdeal.Read
import proofs.«122672_j9036611190784_1_alg».proof.Proof.Stage
import proofs.«122672_j9036611190784_1_alg».proof.Proof.RefStage
import proofs.«122672_j9036611190784_1_alg».proof.Proof.Arr0
import proofs.«122672_j9036611190784_1_alg».proof.Proof.Arr1
import proofs.«122672_j9036611190784_1_alg».proof.Proof.Arr2
import proofs.«122672_j9036611190784_1_alg».proof.Proof.Arr3
import proofs.«122672_j9036611190784_1_alg».proof.Proof.Arr4
import proofs.«122672_j9036611190784_1_alg».proof.Proof.Arr5
import Idealize.ShloMosaic.Lib.StableHlo.Run

set_option maxRecDepth 16384

noncomputable section

namespace Cert.KernelIdeal.Chain

open Cert.KernelIdeal Cert.KernelIdeal.Gen Cert.Stage Cert.ReferenceIdeal.Read
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg) (c : Dev nD)

-- the boundaries' contents are used through their lemmas only: two boundary reads at different buffers are compared by
-- their buffers, never by unfolding the folds
attribute [local irreducible] W2 W4 W6 W8 W10 W12

/-! ## Buffers no launch and no later stretch writes keep their contents -/

theorem arg2_0 : W2 m ρ c (Proc.devRef .tc main_arg0) = m ((c : Thread nD τ).loc main_arg0) :=
  (W2_of_ne m ρ c main_arg0 (by decide)).trans (by
    (show StableHlo.after hostOps0 (W0 m ρ c) (Proc.devRef .tc main_arg0) = _; dsimp only [hostOps0]; after_results) <;> rfl)

theorem arg2_2 : W2 m ρ c (Proc.devRef .tc main_arg2) = m ((c : Thread nD τ).loc main_arg2) :=
  (W2_of_ne m ρ c main_arg2 (by decide)).trans (by
    (show StableHlo.after hostOps0 (W0 m ρ c) (Proc.devRef .tc main_arg2) = _; dsimp only [hostOps0]; after_results) <;> rfl)

theorem arg2_3 : W2 m ρ c (Proc.devRef .tc main_arg3) = m ((c : Thread nD τ).loc main_arg3) :=
  (W2_of_ne m ρ c main_arg3 (by decide)).trans (by
    (show StableHlo.after hostOps0 (W0 m ρ c) (Proc.devRef .tc main_arg3) = _; dsimp only [hostOps0]; after_results) <;> rfl)

theorem arg2_4 : W2 m ρ c (Proc.devRef .tc main_arg4) = m ((c : Thread nD τ).loc main_arg4) :=
  (W2_of_ne m ρ c main_arg4 (by decide)).trans (by
    (show StableHlo.after hostOps0 (W0 m ρ c) (Proc.devRef .tc main_arg4) = _; dsimp only [hostOps0]; after_results) <;> rfl)

theorem arg2_5 : W2 m ρ c (Proc.devRef .tc main_arg5) = m ((c : Thread nD τ).loc main_arg5) :=
  (W2_of_ne m ρ c main_arg5 (by decide)).trans (by
    (show StableHlo.after hostOps0 (W0 m ρ c) (Proc.devRef .tc main_arg5) = _; dsimp only [hostOps0]; after_results) <;> rfl)

theorem arg4_0 : W4 m ρ c (Proc.devRef .tc main_arg0) = m ((c : Thread nD τ).loc main_arg0) :=
  (W4_of_ne m ρ c main_arg0 (by decide)).trans (by
    (show StableHlo.after hostOps1 (W2 m ρ c) (Proc.devRef .tc main_arg0) = _; dsimp only [hostOps1]; after_results) <;> exact arg2_0 m ρ c)

theorem arg4_2 : W4 m ρ c (Proc.devRef .tc main_arg2) = m ((c : Thread nD τ).loc main_arg2) :=
  (W4_of_ne m ρ c main_arg2 (by decide)).trans (by
    (show StableHlo.after hostOps1 (W2 m ρ c) (Proc.devRef .tc main_arg2) = _; dsimp only [hostOps1]; after_results) <;> exact arg2_2 m ρ c)

theorem arg4_3 : W4 m ρ c (Proc.devRef .tc main_arg3) = m ((c : Thread nD τ).loc main_arg3) :=
  (W4_of_ne m ρ c main_arg3 (by decide)).trans (by
    (show StableHlo.after hostOps1 (W2 m ρ c) (Proc.devRef .tc main_arg3) = _; dsimp only [hostOps1]; after_results) <;> exact arg2_3 m ρ c)

theorem arg4_4 : W4 m ρ c (Proc.devRef .tc main_arg4) = m ((c : Thread nD τ).loc main_arg4) :=
  (W4_of_ne m ρ c main_arg4 (by decide)).trans (by
    (show StableHlo.after hostOps1 (W2 m ρ c) (Proc.devRef .tc main_arg4) = _; dsimp only [hostOps1]; after_results) <;> exact arg2_4 m ρ c)

theorem arg4_5 : W4 m ρ c (Proc.devRef .tc main_arg5) = m ((c : Thread nD τ).loc main_arg5) :=
  (W4_of_ne m ρ c main_arg5 (by decide)).trans (by
    (show StableHlo.after hostOps1 (W2 m ρ c) (Proc.devRef .tc main_arg5) = _; dsimp only [hostOps1]; after_results) <;> exact arg2_5 m ρ c)

theorem arg6_0 : W6 m ρ c (Proc.devRef .tc main_arg0) = m ((c : Thread nD τ).loc main_arg0) :=
  (W6_of_ne m ρ c main_arg0 (by decide)).trans (by
    (show StableHlo.after hostOps2 (W4 m ρ c) (Proc.devRef .tc main_arg0) = _; dsimp only [hostOps2]; after_results) <;> exact arg4_0 m ρ c)

theorem arg6_2 : W6 m ρ c (Proc.devRef .tc main_arg2) = m ((c : Thread nD τ).loc main_arg2) :=
  (W6_of_ne m ρ c main_arg2 (by decide)).trans (by
    (show StableHlo.after hostOps2 (W4 m ρ c) (Proc.devRef .tc main_arg2) = _; dsimp only [hostOps2]; after_results) <;> exact arg4_2 m ρ c)

theorem arg6_3 : W6 m ρ c (Proc.devRef .tc main_arg3) = m ((c : Thread nD τ).loc main_arg3) :=
  (W6_of_ne m ρ c main_arg3 (by decide)).trans (by
    (show StableHlo.after hostOps2 (W4 m ρ c) (Proc.devRef .tc main_arg3) = _; dsimp only [hostOps2]; after_results) <;> exact arg4_3 m ρ c)

theorem arg6_4 : W6 m ρ c (Proc.devRef .tc main_arg4) = m ((c : Thread nD τ).loc main_arg4) :=
  (W6_of_ne m ρ c main_arg4 (by decide)).trans (by
    (show StableHlo.after hostOps2 (W4 m ρ c) (Proc.devRef .tc main_arg4) = _; dsimp only [hostOps2]; after_results) <;> exact arg4_4 m ρ c)

theorem arg6_5 : W6 m ρ c (Proc.devRef .tc main_arg5) = m ((c : Thread nD τ).loc main_arg5) :=
  (W6_of_ne m ρ c main_arg5 (by decide)).trans (by
    (show StableHlo.after hostOps2 (W4 m ρ c) (Proc.devRef .tc main_arg5) = _; dsimp only [hostOps2]; after_results) <;> exact arg4_5 m ρ c)

theorem arg8_0 : W8 m ρ c (Proc.devRef .tc main_arg0) = m ((c : Thread nD τ).loc main_arg0) :=
  (W8_of_ne m ρ c main_arg0 (by decide)).trans (by
    (show StableHlo.after hostOps3 (W6 m ρ c) (Proc.devRef .tc main_arg0) = _; dsimp only [hostOps3]; after_results) <;> exact arg6_0 m ρ c)

theorem arg8_2 : W8 m ρ c (Proc.devRef .tc main_arg2) = m ((c : Thread nD τ).loc main_arg2) :=
  (W8_of_ne m ρ c main_arg2 (by decide)).trans (by
    (show StableHlo.after hostOps3 (W6 m ρ c) (Proc.devRef .tc main_arg2) = _; dsimp only [hostOps3]; after_results) <;> exact arg6_2 m ρ c)

theorem arg8_3 : W8 m ρ c (Proc.devRef .tc main_arg3) = m ((c : Thread nD τ).loc main_arg3) :=
  (W8_of_ne m ρ c main_arg3 (by decide)).trans (by
    (show StableHlo.after hostOps3 (W6 m ρ c) (Proc.devRef .tc main_arg3) = _; dsimp only [hostOps3]; after_results) <;> exact arg6_3 m ρ c)

theorem arg8_4 : W8 m ρ c (Proc.devRef .tc main_arg4) = m ((c : Thread nD τ).loc main_arg4) :=
  (W8_of_ne m ρ c main_arg4 (by decide)).trans (by
    (show StableHlo.after hostOps3 (W6 m ρ c) (Proc.devRef .tc main_arg4) = _; dsimp only [hostOps3]; after_results) <;> exact arg6_4 m ρ c)

theorem arg8_5 : W8 m ρ c (Proc.devRef .tc main_arg5) = m ((c : Thread nD τ).loc main_arg5) :=
  (W8_of_ne m ρ c main_arg5 (by decide)).trans (by
    (show StableHlo.after hostOps3 (W6 m ρ c) (Proc.devRef .tc main_arg5) = _; dsimp only [hostOps3]; after_results) <;> exact arg6_5 m ρ c)

theorem arg10_0 : W10 m ρ c (Proc.devRef .tc main_arg0) = m ((c : Thread nD τ).loc main_arg0) :=
  (W10_of_ne m ρ c main_arg0 (by decide)).trans (by
    (show StableHlo.after hostOps4 (W8 m ρ c) (Proc.devRef .tc main_arg0) = _; dsimp only [hostOps4]; after_results) <;> exact arg8_0 m ρ c)

theorem arg10_2 : W10 m ρ c (Proc.devRef .tc main_arg2) = m ((c : Thread nD τ).loc main_arg2) :=
  (W10_of_ne m ρ c main_arg2 (by decide)).trans (by
    (show StableHlo.after hostOps4 (W8 m ρ c) (Proc.devRef .tc main_arg2) = _; dsimp only [hostOps4]; after_results) <;> exact arg8_2 m ρ c)

theorem arg10_3 : W10 m ρ c (Proc.devRef .tc main_arg3) = m ((c : Thread nD τ).loc main_arg3) :=
  (W10_of_ne m ρ c main_arg3 (by decide)).trans (by
    (show StableHlo.after hostOps4 (W8 m ρ c) (Proc.devRef .tc main_arg3) = _; dsimp only [hostOps4]; after_results) <;> exact arg8_3 m ρ c)

theorem arg10_4 : W10 m ρ c (Proc.devRef .tc main_arg4) = m ((c : Thread nD τ).loc main_arg4) :=
  (W10_of_ne m ρ c main_arg4 (by decide)).trans (by
    (show StableHlo.after hostOps4 (W8 m ρ c) (Proc.devRef .tc main_arg4) = _; dsimp only [hostOps4]; after_results) <;> exact arg8_4 m ρ c)

theorem arg10_5 : W10 m ρ c (Proc.devRef .tc main_arg5) = m ((c : Thread nD τ).loc main_arg5) :=
  (W10_of_ne m ρ c main_arg5 (by decide)).trans (by
    (show StableHlo.after hostOps4 (W8 m ρ c) (Proc.devRef .tc main_arg5) = _; dsimp only [hostOps4]; after_results) <;> exact arg8_5 m ρ c)

theorem arg12_5 : W12 m ρ c (Proc.devRef .tc main_arg5) = m ((c : Thread nD τ).loc main_arg5) :=
  (W12_of_ne m ρ c main_arg5 (by decide)).trans (by
    (show StableHlo.after hostOps5 (W10 m ρ c) (Proc.devRef .tc main_arg5) = _; dsimp only [hostOps5]; after_results) <;> exact arg10_5 m ρ c)

/-! ## The weights in the launches' format are the weights -/

theorem wh2 : W2 m ρ c (Proc.devRef .tc main_v1) = (m ((c : Thread nD τ).loc main_arg7) : S2048x2048.Idx → EReal) :=
  (W2_of_ne m ρ c main_v1 (by decide)).trans (by
    (show StableHlo.after hostOps0 (W0 m ρ c) (Proc.devRef .tc main_v1) = _; dsimp only [hostOps0]; after_results) <;> rfl)

theorem wo2 : W2 m ρ c (Proc.devRef .tc main_v2) = (m ((c : Thread nD τ).loc main_arg8) : S2120x2048.Idx → EReal) :=
  (W2_of_ne m ρ c main_v2 (by decide)).trans (by
    (show StableHlo.after hostOps0 (W0 m ρ c) (Proc.devRef .tc main_v2) = _; dsimp only [hostOps0]; after_results) <;> rfl)

theorem bo2 : W2 m ρ c (Proc.devRef .tc main_v3)
    = shapeCast S1x2048 (m ((c : Thread nD τ).loc main_arg9) : S2048.Idx → EReal) shapeCasts_S2048_S1x2048 :=
  (W2_of_ne m ρ c main_v3 (by decide)).trans (by
    (show StableHlo.after hostOps0 (W0 m ρ c) (Proc.devRef .tc main_v3) = _; dsimp only [hostOps0]; after_results) <;> rfl)

theorem wo4 : W4 m ρ c (Proc.devRef .tc main_v2) = (m ((c : Thread nD τ).loc main_arg8) : S2120x2048.Idx → EReal) :=
  (W4_of_ne m ρ c main_v2 (by decide)).trans (by
    (show StableHlo.after hostOps1 (W2 m ρ c) (Proc.devRef .tc main_v2) = _; dsimp only [hostOps1]; after_results) <;> exact wo2 m ρ c)

theorem bo4 : W4 m ρ c (Proc.devRef .tc main_v3)
    = shapeCast S1x2048 (m ((c : Thread nD τ).loc main_arg9) : S2048.Idx → EReal) shapeCasts_S2048_S1x2048 :=
  (W4_of_ne m ρ c main_v3 (by decide)).trans (by
    (show StableHlo.after hostOps1 (W2 m ρ c) (Proc.devRef .tc main_v3) = _; dsimp only [hostOps1]; after_results) <;> exact bo2 m ρ c)

theorem wo6 : W6 m ρ c (Proc.devRef .tc main_v2) = (m ((c : Thread nD τ).loc main_arg8) : S2120x2048.Idx → EReal) :=
  (W6_of_ne m ρ c main_v2 (by decide)).trans (by
    (show StableHlo.after hostOps2 (W4 m ρ c) (Proc.devRef .tc main_v2) = _; dsimp only [hostOps2]; after_results) <;> exact wo4 m ρ c)

theorem bo6 : W6 m ρ c (Proc.devRef .tc main_v3)
    = shapeCast S1x2048 (m ((c : Thread nD τ).loc main_arg9) : S2048.Idx → EReal) shapeCasts_S2048_S1x2048 :=
  (W6_of_ne m ρ c main_v3 (by decide)).trans (by
    (show StableHlo.after hostOps2 (W4 m ρ c) (Proc.devRef .tc main_v3) = _; dsimp only [hostOps2]; after_results) <;> exact bo4 m ρ c)

theorem wo8 : W8 m ρ c (Proc.devRef .tc main_v2) = (m ((c : Thread nD τ).loc main_arg8) : S2120x2048.Idx → EReal) :=
  (W8_of_ne m ρ c main_v2 (by decide)).trans (by
    (show StableHlo.after hostOps3 (W6 m ρ c) (Proc.devRef .tc main_v2) = _; dsimp only [hostOps3]; after_results) <;> exact wo6 m ρ c)

theorem bo8 : W8 m ρ c (Proc.devRef .tc main_v3)
    = shapeCast S1x2048 (m ((c : Thread nD τ).loc main_arg9) : S2048.Idx → EReal) shapeCasts_S2048_S1x2048 :=
  (W8_of_ne m ρ c main_v3 (by decide)).trans (by
    (show StableHlo.after hostOps3 (W6 m ρ c) (Proc.devRef .tc main_v3) = _; dsimp only [hostOps3]; after_results) <;> exact bo6 m ρ c)

theorem wo10 : W10 m ρ c (Proc.devRef .tc main_v2) = (m ((c : Thread nD τ).loc main_arg8) : S2120x2048.Idx → EReal) :=
  (W10_of_ne m ρ c main_v2 (by decide)).trans (by
    (show StableHlo.after hostOps4 (W8 m ρ c) (Proc.devRef .tc main_v2) = _; dsimp only [hostOps4]; after_results) <;> exact wo8 m ρ c)

theorem bo10 : W10 m ρ c (Proc.devRef .tc main_v3)
    = shapeCast S1x2048 (m ((c : Thread nD τ).loc main_arg9) : S2048.Idx → EReal) shapeCasts_S2048_S1x2048 :=
  (W10_of_ne m ρ c main_v3 (by decide)).trans (by
    (show StableHlo.after hostOps4 (W8 m ρ c) (Proc.devRef .tc main_v3) = _; dsimp only [hostOps4]; after_results) <;> exact bo8 m ρ c)

/-! ## The first launch: H0 -/

/-- The launch reads the concatenated edge features [V[src] | E]. -/
theorem e0_x : V1 m ρ c main_v12 = val_main_v7 (F := Ideal) (m ((c : Thread nD τ).loc main_arg0)) (m ((c : Thread nD τ).loc main_arg1)) (m ((c : Thread nD τ).loc main_arg2)) := by
  (show StableHlo.after hostOps0 (W0 m ρ c) (Proc.devRef .tc main_v12) = _; dsimp only [hostOps0]; after_results) <;> rfl

theorem e0_w : V1 m ρ c main_v0 = (m ((c : Thread nD τ).loc main_arg6) : S86x2048.Idx → EReal) := by
  (show StableHlo.after hostOps0 (W0 m ρ c) (Proc.devRef .tc main_v0) = _; dsimp only [hostOps0]; after_results) <;> rfl

/-- After the first launch its result array holds the reference's H0. -/
theorem h0_2 : W2 m ρ c (Proc.devRef .tc main_v13) = val_main_v9 (F := Ideal) (m ((c : Thread nD τ).loc main_arg0)) (m ((c : Thread nD τ).loc main_arg1)) (m ((c : Thread nD τ).loc main_arg2)) (m ((c : Thread nD τ).loc main_arg6)) :=
  ((W2_arr m ρ c 2).trans (Arr0.final (V1 m ρ) c)).trans (by
    show mmRelu (V1 m ρ c main_v12 : S32768x86.Idx → EReal) (V1 m ρ c main_v0 : S86x2048.Idx → EReal) = _
    rw [e0_x m ρ c, e0_w m ρ c]
    exact (Cert.RefStage.h0_eq (m ((c : Thread nD τ).loc main_arg0)) (m ((c : Thread nD τ).loc main_arg1)) (m ((c : Thread nD τ).loc main_arg2)) (m ((c : Thread nD τ).loc main_arg6))).symm)

/-! ## Recurrent launch 1 -/

set_option maxHeartbeats 1600000 in
/-- The launch reads the messages segsum(H)[src] − H[rev] of the previous hidden state. -/
theorem e1_m : V3 m ρ c main_v32 = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  show StableHlo.after hostOps1 (W2 m ρ c) (Proc.devRef .tc main_v32) = _
  dsimp only [hostOps1]
  after_results
  rw [h0_2 m ρ c, arg2_3 m ρ c, arg2_2 m ρ c, arg2_4 m ρ c]
  rfl

theorem e1_h : V3 m ρ c main_v13 = val_main_v9 (F := Ideal) (m ((c : Thread nD τ).loc main_arg0)) (m ((c : Thread nD τ).loc main_arg1)) (m ((c : Thread nD τ).loc main_arg2)) (m ((c : Thread nD τ).loc main_arg6)) := by
  (show StableHlo.after hostOps1 (W2 m ρ c) (Proc.devRef .tc main_v13) = _; dsimp only [hostOps1]; after_results) <;> exact h0_2 m ρ c

theorem e1_w : V3 m ρ c main_v1 = (m ((c : Thread nD τ).loc main_arg7) : S2048x2048.Idx → EReal) := by
  (show StableHlo.after hostOps1 (W2 m ρ c) (Proc.devRef .tc main_v1) = _; dsimp only [hostOps1]; after_results) <;> exact wh2 m ρ c

/-- After the launch its result array holds the reference's next hidden state. -/
theorem hr1 : W4 m ρ c (Proc.devRef .tc main_v33) = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) :=
  ((W4_arr m ρ c 3).trans (Arr1.final (V3 m ρ) c)).trans (by
    show mmAddRelu (V3 m ρ c main_v13 : S32768x2048.Idx → EReal) (V3 m ρ c main_v32 : S32768x2048.Idx → EReal)
      (V3 m ρ c main_v1 : S2048x2048.Idx → EReal) = _
    rw [e1_h m ρ c, e1_m m ρ c, e1_w m ρ c]
    exact (Cert.RefStage.h1_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7))).symm)

/-- The launch only reads H0 and the weights: they are as before it. -/
theorem h0_4 : W4 m ρ c (Proc.devRef .tc main_v13) = val_main_v9 (F := Ideal) (m ((c : Thread nD τ).loc main_arg0)) (m ((c : Thread nD τ).loc main_arg1)) (m ((c : Thread nD τ).loc main_arg2)) (m ((c : Thread nD τ).loc main_arg6)) :=
  (W4_arr m ρ c 0).trans (((dat1 (V3 m ρ) c).arrAt_in 0 rfl cfg1.N).trans
    ((A_eq1 (V3 m ρ) c 0).trans (e1_h m ρ c)))

theorem wh4 : W4 m ρ c (Proc.devRef .tc main_v1) = (m ((c : Thread nD τ).loc main_arg7) : S2048x2048.Idx → EReal) :=
  (W4_arr m ρ c 2).trans (((dat1 (V3 m ρ) c).arrAt_in 2 rfl cfg1.N).trans
    ((A_eq1 (V3 m ρ) c 2).trans (e1_w m ρ c)))

/-! ## Recurrent launch 2 -/

set_option maxHeartbeats 1600000 in
/-- The launch reads the messages segsum(H)[src] − H[rev] of the previous hidden state. -/
theorem e2_m : V5 m ρ c main_v52 = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) := by
  show StableHlo.after hostOps2 (W4 m ρ c) (Proc.devRef .tc main_v52) = _
  dsimp only [hostOps2]
  after_results
  rw [hr1 m ρ c, arg4_3 m ρ c, arg4_2 m ρ c, arg4_4 m ρ c]
  rfl

theorem e2_h : V5 m ρ c main_v13 = val_main_v9 (F := Ideal) (m ((c : Thread nD τ).loc main_arg0)) (m ((c : Thread nD τ).loc main_arg1)) (m ((c : Thread nD τ).loc main_arg2)) (m ((c : Thread nD τ).loc main_arg6)) := by
  (show StableHlo.after hostOps2 (W4 m ρ c) (Proc.devRef .tc main_v13) = _; dsimp only [hostOps2]; after_results) <;> exact h0_4 m ρ c

theorem e2_w : V5 m ρ c main_v1 = (m ((c : Thread nD τ).loc main_arg7) : S2048x2048.Idx → EReal) := by
  (show StableHlo.after hostOps2 (W4 m ρ c) (Proc.devRef .tc main_v1) = _; dsimp only [hostOps2]; after_results) <;> exact wh4 m ρ c

/-- After the launch its result array holds the reference's next hidden state. -/
theorem hr2 : W6 m ρ c (Proc.devRef .tc main_v53) = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) :=
  ((W6_arr m ρ c 3).trans (Arr2.final (V5 m ρ) c)).trans (by
    show mmAddRelu (V5 m ρ c main_v13 : S32768x2048.Idx → EReal) (V5 m ρ c main_v52 : S32768x2048.Idx → EReal)
      (V5 m ρ c main_v1 : S2048x2048.Idx → EReal) = _
    rw [e2_h m ρ c, e2_m m ρ c, e2_w m ρ c]
    exact (Cert.RefStage.h2_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7))).symm)

/-- The launch only reads H0 and the weights: they are as before it. -/
theorem h0_6 : W6 m ρ c (Proc.devRef .tc main_v13) = val_main_v9 (F := Ideal) (m ((c : Thread nD τ).loc main_arg0)) (m ((c : Thread nD τ).loc main_arg1)) (m ((c : Thread nD τ).loc main_arg2)) (m ((c : Thread nD τ).loc main_arg6)) :=
  (W6_arr m ρ c 0).trans (((dat2 (V5 m ρ) c).arrAt_in 0 rfl cfg2.N).trans
    ((A_eq2 (V5 m ρ) c 0).trans (e2_h m ρ c)))

theorem wh6 : W6 m ρ c (Proc.devRef .tc main_v1) = (m ((c : Thread nD τ).loc main_arg7) : S2048x2048.Idx → EReal) :=
  (W6_arr m ρ c 2).trans (((dat2 (V5 m ρ) c).arrAt_in 2 rfl cfg2.N).trans
    ((A_eq2 (V5 m ρ) c 2).trans (e2_w m ρ c)))

/-! ## Recurrent launch 3 -/

set_option maxHeartbeats 1600000 in
/-- The launch reads the messages segsum(H)[src] − H[rev] of the previous hidden state. -/
theorem e3_m : V7 m ρ c main_v72 = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) := by
  show StableHlo.after hostOps3 (W6 m ρ c) (Proc.devRef .tc main_v72) = _
  dsimp only [hostOps3]
  after_results
  rw [hr2 m ρ c, arg6_3 m ρ c, arg6_2 m ρ c, arg6_4 m ρ c]
  rfl

theorem e3_h : V7 m ρ c main_v13 = val_main_v9 (F := Ideal) (m ((c : Thread nD τ).loc main_arg0)) (m ((c : Thread nD τ).loc main_arg1)) (m ((c : Thread nD τ).loc main_arg2)) (m ((c : Thread nD τ).loc main_arg6)) := by
  (show StableHlo.after hostOps3 (W6 m ρ c) (Proc.devRef .tc main_v13) = _; dsimp only [hostOps3]; after_results) <;> exact h0_6 m ρ c

theorem e3_w : V7 m ρ c main_v1 = (m ((c : Thread nD τ).loc main_arg7) : S2048x2048.Idx → EReal) := by
  (show StableHlo.after hostOps3 (W6 m ρ c) (Proc.devRef .tc main_v1) = _; dsimp only [hostOps3]; after_results) <;> exact wh6 m ρ c

/-- After the launch its result array holds the reference's next hidden state. -/
theorem hr3 : W8 m ρ c (Proc.devRef .tc main_v73) = val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) :=
  ((W8_arr m ρ c 3).trans (Arr3.final (V7 m ρ) c)).trans (by
    show mmAddRelu (V7 m ρ c main_v13 : S32768x2048.Idx → EReal) (V7 m ρ c main_v72 : S32768x2048.Idx → EReal)
      (V7 m ρ c main_v1 : S2048x2048.Idx → EReal) = _
    rw [e3_h m ρ c, e3_m m ρ c, e3_w m ρ c]
    exact (Cert.RefStage.h3_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7))).symm)

/-- The launch only reads H0 and the weights: they are as before it. -/
theorem h0_8 : W8 m ρ c (Proc.devRef .tc main_v13) = val_main_v9 (F := Ideal) (m ((c : Thread nD τ).loc main_arg0)) (m ((c : Thread nD τ).loc main_arg1)) (m ((c : Thread nD τ).loc main_arg2)) (m ((c : Thread nD τ).loc main_arg6)) :=
  (W8_arr m ρ c 0).trans (((dat3 (V7 m ρ) c).arrAt_in 0 rfl cfg3.N).trans
    ((A_eq3 (V7 m ρ) c 0).trans (e3_h m ρ c)))

theorem wh8 : W8 m ρ c (Proc.devRef .tc main_v1) = (m ((c : Thread nD τ).loc main_arg7) : S2048x2048.Idx → EReal) :=
  (W8_arr m ρ c 2).trans (((dat3 (V7 m ρ) c).arrAt_in 2 rfl cfg3.N).trans
    ((A_eq3 (V7 m ρ) c 2).trans (e3_w m ρ c)))

/-! ## Recurrent launch 4 -/

set_option maxHeartbeats 1600000 in
/-- The launch reads the messages segsum(H)[src] − H[rev] of the previous hidden state. -/
theorem e4_m : V9 m ρ c main_v92 = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) := by
  show StableHlo.after hostOps4 (W8 m ρ c) (Proc.devRef .tc main_v92) = _
  dsimp only [hostOps4]
  after_results
  rw [hr3 m ρ c, arg8_3 m ρ c, arg8_2 m ρ c, arg8_4 m ρ c]
  rfl

theorem e4_h : V9 m ρ c main_v13 = val_main_v9 (F := Ideal) (m ((c : Thread nD τ).loc main_arg0)) (m ((c : Thread nD τ).loc main_arg1)) (m ((c : Thread nD τ).loc main_arg2)) (m ((c : Thread nD τ).loc main_arg6)) := by
  (show StableHlo.after hostOps4 (W8 m ρ c) (Proc.devRef .tc main_v13) = _; dsimp only [hostOps4]; after_results) <;> exact h0_8 m ρ c

theorem e4_w : V9 m ρ c main_v1 = (m ((c : Thread nD τ).loc main_arg7) : S2048x2048.Idx → EReal) := by
  (show StableHlo.after hostOps4 (W8 m ρ c) (Proc.devRef .tc main_v1) = _; dsimp only [hostOps4]; after_results) <;> exact wh8 m ρ c

/-- After the launch its result array holds the reference's next hidden state. -/
theorem hr4 : W10 m ρ c (Proc.devRef .tc main_v93) = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) :=
  ((W10_arr m ρ c 3).trans (Arr4.final (V9 m ρ) c)).trans (by
    show mmAddRelu (V9 m ρ c main_v13 : S32768x2048.Idx → EReal) (V9 m ρ c main_v92 : S32768x2048.Idx → EReal)
      (V9 m ρ c main_v1 : S2048x2048.Idx → EReal) = _
    rw [e4_h m ρ c, e4_m m ρ c, e4_w m ρ c]
    exact (Cert.RefStage.h4_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7))).symm)

/-! ## The last launch: H_v -/

/-- The launch reads [V | segsum(H)] of the last hidden state. -/
theorem e5_x : V11 m ρ c main_v98 = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) := by
  show StableHlo.after hostOps5 (W10 m ρ c) (Proc.devRef .tc main_v98) = _
  dsimp only [hostOps5]
  after_results
  rw [hr4 m ρ c, arg10_3 m ρ c, arg10_0 m ρ c]
  rfl

theorem e5_w : V11 m ρ c main_v2 = (m ((c : Thread nD τ).loc main_arg8) : S2120x2048.Idx → EReal) := by
  (show StableHlo.after hostOps5 (W10 m ρ c) (Proc.devRef .tc main_v2) = _; dsimp only [hostOps5]; after_results) <;> exact wo10 m ρ c

theorem e5_b : V11 m ρ c main_v3
    = shapeCast S1x2048 (m ((c : Thread nD τ).loc main_arg9) : S2048.Idx → EReal) shapeCasts_S2048_S1x2048 := by
  (show StableHlo.after hostOps5 (W10 m ρ c) (Proc.devRef .tc main_v3) = _; dsimp only [hostOps5]; after_results) <;> exact bo10 m ρ c

/-- After the last launch its result array holds the reference's atom hidden states. -/
theorem hv : W12 m ρ c (Proc.devRef .tc main_v99) = val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) :=
  ((W12_arr m ρ c 3).trans (Arr5.final (V11 m ρ) c)).trans (by
    show mmBiasRelu (V11 m ρ c main_v98 : S16384x2120.Idx → EReal) (V11 m ρ c main_v2 : S2120x2048.Idx → EReal)
      (V11 m ρ c main_v3 : S1x2048.Idx → EReal) = _
    rw [e5_x m ρ c, e5_w m ρ c, e5_b m ρ c]
    exact (Cert.RefStage.hv_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) shapeCasts_S2048_S1x2048).symm)

/-! ## The host tail: the mean over each molecule's atoms -/

/-- The result buffer ends at the reference's result. -/
theorem result : W13 m ρ c (Proc.devRef .tc main_v111) = val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps6 (W12 m ρ c) (Proc.devRef .tc main_v111) = _
  dsimp only [hostOps6]
  after_results
  rw [hv m ρ c, arg12_5 m ρ c]
  rfl

end Cert.KernelIdeal.Chain

end
-- ==== Proof.lean ====
/-
  A bond-message-passing encoder with mean aggregation: the kernel program against its jnp reference, on the extended reals.

  Both programs compute, from atom features V, bond features E, the bonds' source / destination / reverse-bond tables, a
  molecule table and three weight matrices with a bias,
      H0 = relu ([V[src] | E]·W_i),
      H  ← relu (H0 + (segsum_dst(H)[src] − H[rev])·W_h)      four times, starting from H0,
      H_v = relu ([V | segsum_dst(H)]·W_o + b_o),
      out = segsum_mol(H_v) / max (segsum_mol(1), 1).
  The kernel program runs the three matrix stages as launches over row bands (and, for the recurrent stage, column
  strips) with operands changed to a shorter float format first; everything else it leaves to host operations, the
  reference's own.  On the extended reals a change of format is the identity and a matrix product's entry is a finite
  sum whatever the tiling, so each launch's result array is the reference's stage of the arrays it reads (the
  blocks-to-array modules and the stage modules), and walking down the program boundary by boundary (the chain module)
  the kernel's result buffer ends at the reference's result term.  The equality is structural: no law of arithmetic
  that could fail at an infinity is used, so the precondition (finite inputs) is never opened.
  The three frames are the generated frame certificates and the reference's generated run; the idealization rewrote
  nothing, so its claim is trivial.
-/
import proofs.«122672_j9036611190784_1_alg».proof.Defs
import proofs.«122672_j9036611190784_1_alg».proof.Proof.Gen.Kernel
import proofs.«122672_j9036611190784_1_alg».proof.Proof.Gen.Kernel.Skeleton
import proofs.«122672_j9036611190784_1_alg».proof.Proof.Gen.Kernel.Launch
import proofs.«122672_j9036611190784_1_alg».proof.Proof.Gen.Kernel.Points
import proofs.«122672_j9036611190784_1_alg».proof.Proof.Gen.Kernel.Frame
import proofs.«122672_j9036611190784_1_alg».proof.Proof.Gen.KernelIdeal
import proofs.«122672_j9036611190784_1_alg».proof.Proof.Gen.KernelIdeal.Skeleton
import proofs.«122672_j9036611190784_1_alg».proof.Proof.Gen.KernelIdeal.Launch
import proofs.«122672_j9036611190784_1_alg».proof.Proof.Gen.KernelIdeal.Points
import proofs.«122672_j9036611190784_1_alg».proof.Proof.Gen.KernelIdeal.Frame
import proofs.«122672_j9036611190784_1_alg».proof.Proof.Gen.ReferenceIdeal
import proofs.«122672_j9036611190784_1_alg».proof.Proof.Gen.Pre_finite_inputs
import proofs.«122672_j9036611190784_1_alg».proof.Proof.Gen.ReferenceIdeal.Run
import proofs.«122672_j9036611190784_1_alg».proof.Proof.Gen.ReferenceIdeal.Read
import proofs.«122672_j9036611190784_1_alg».proof.Proof.RunNamed
import proofs.«122672_j9036611190784_1_alg».proof.Proof.Chain
import Idealize.ShloMosaic.Adequacy
import Idealize.ShloMosaic.Init

noncomputable section

namespace Cert.Proof

open Idealize.ShloMosaic Idealize.SL.Sem

/-- The word-level kernel runs and keeps its arguments: the generated frame certificate. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no launch: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the reference's result term of the (agreeing) arguments. -/
theorem algebraic : Cert.algebraic_KernelIdeal_ReferenceIdeal := by
  intro m ρ m' ρ' _ hagree
  refine ⟨fun c => Cert.ReferenceIdeal.Read.val_main_v114 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Chain.result m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    obtain ⟨g0, g1, g2, g3, g4, g5, g6, g7, g8, g9⟩ := hagree c
    rw [Cert.ReferenceIdeal.Read.val_main_v114_eq, g0, g1, g2, g3, g4, g5, g6, g7, g8, g9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
